-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S64x128 : Shape := ⟨2, ![64, 128]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S64x128 .f32) (main_arg3 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S64x128 : Shape := ⟨2, ![64, 128]⟩
abbrev S64 : Shape := ⟨1, ![64]⟩
abbrev S16384x64 : Shape := ⟨2, ![16384, 64]⟩
abbrev S2048x128 : Shape := ⟨2, ![2048, 128]⟩
abbrev S2048x64 : Shape := ⟨2, ![2048, 64]⟩
abbrev S128x64 : Shape := ⟨2, ![128, 64]⟩
abbrev S1x64 : Shape := ⟨2, ![1, 64]⟩
abbrev S1024x2048 : Shape := ⟨2, ![1024, 2048]⟩
abbrev S1024x64 : Shape := ⟨2, ![1024, 64]⟩

abbrev nBuf : Space → Nat
  | .hbm => 7
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S64x128, .f32⟩
  | .hbm, ⟨3, _⟩ => ⟨S64, .f32⟩
  | .hbm, ⟨4, _⟩ => ⟨S16384x64, .bf16⟩
  | .hbm, ⟨5, _⟩ => ⟨S1x64, .f32⟩
  | .hbm, ⟨6, _⟩ => ⟨S16384x64, .f32⟩
  | .local _ .vmem, ⟨0, _⟩ => ⟨S2048x128, .f32⟩
  | .local _ .vmem, ⟨1, _⟩ => ⟨S2048x128, .f32⟩
  | .local _ .vmem, ⟨2, _⟩ => ⟨S64x128, .f32⟩
  | .local _ .vmem, ⟨3, _⟩ => ⟨S2048x64, .bf16⟩
  | .local _ .vmem, ⟨4, _⟩ => ⟨S2048x64, .bf16⟩
  | .local _ .vmem, ⟨5, _⟩ => ⟨S1024x2048, .f32⟩
  | .local _ .vmem, ⟨6, _⟩ => ⟨S1024x2048, .f32⟩
  | .local _ .vmem, ⟨7, _⟩ => ⟨S16384x64, .bf16⟩
  | .local _ .vmem, ⟨8, _⟩ => ⟨S1x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .bf16 = 32 ∨ (Rect.block (s := S16384x64) S16384x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S64x128 : Shape := ⟨2, ![64, 128]⟩
abbrev S64 : Shape := ⟨1, ![64]⟩
abbrev S128x64 : Shape := ⟨2, ![128, 64]⟩
abbrev S16384x64 : Shape := ⟨2, ![16384, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S16384x64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K.Region0.lean ====
/- The frame half of the first pallas_call of `Kernel`'s @main (kernel function `cc0__linear_kernel`),
   at a parameter `V` — the TensorCore's buffer contents when the region is entered — and for any float
   instance `F`: each window's block at a grid point, what the body leaves in the output window's buffer as a
   function of the two input blocks, the body's triple, the pipeline's proof data and its body obligation. -/
import proofs.«164517_j44246753084001_2_alg».proof.Proof.Gen.Kernel.Launch
import proofs.«164517_j44246753084001_2_alg».proof.Proof.Gen.Kernel.Skeleton
import proofs.«164517_j44246753084001_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents (2048 rows): the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: the first pallas_call, `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 2048×128 row block of the activations, whose block index moves with the point) holds its
    block in its current staging buffer at every point, for ANY proof data whose array is `V`'s (`hA`) and whose
    body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole 64×128 weight, whose block index is constant: fetched at the first point only) holds
    its block in its staging buffer at every point, fetched there or not: unfetched, the block index has not
    moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2048×128 activation block, -/
abbrev r0_x : Rect S2048x128 := Rect.unit (s := S2048x128) ![0, 0] S2048x128.size inb_S2048x128_S2048x128_0_0
/-- the whole 64×128 weight, -/
abbrev r0_w : Rect S64x128 := Rect.unit (s := S64x128) ![0, 0] S64x128.size inb_S64x128_S64x128_0_0
/-- and the whole 2048×64 output block. -/
abbrev r0_o : Rect S2048x64 := Rect.unit (s := S2048x64) ![0, 0] S2048x64.size inb_S2048x64_S2048x64_0_0

/-! ## What the body leaves in the output window's buffer -/

/-- Window 2's staging buffer after the body, from the input windows' blocks: its one store, of the whole block —
    the product of the activation block with the transposed weight, both rounded to bf16, accumulated in f32 from
    zero and rounded to bf16 (the skeleton's payload `k0_pay1`). -/
def out0_2 (x0 : Vec F S2048x128 .f32) (x1 : Vec F S64x128 .f32) : Vec F S2048x64 .bf16 :=
  View.canon [⟨r0_o, k0_pay1 (View.ld x0 r0_x) (View.ld x1 r0_w)⟩]

/-- The one store is of the whole buffer, so it covers it. -/
theorem cover0_2 (p0 : Vec F S2048x64 .bf16) (y : S2048x64.Idx) :
    ∃ pc ∈ ([⟨r0_o, p0⟩] : List (View.Piece (Elt F) S2048x64 .bf16)), y ∈ pc.1.set :=
  View.cover_of_tiled [⟨r0_o, p0⟩] S2048x64.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton — two loads, a load of the output's buffer whose value nothing reads, and
    one store of the whole output. -/
theorem sound_kernel0 (c : Dev nD) (E : Set ℕ) (i : grid0.Coords) (arg1 : Memref sig .tc .vmem S2048x128 .f32) (harg1 : arg1.IsWhole) (arg2 : Memref sig .tc .vmem S64x128 .f32) (harg2 : arg2.IsWhole) (arg3 : Memref sig .tc .vmem S2048x64 .bf16) (harg3 : arg3.IsWhole)
    (x0 : Vec F S2048x128 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region1Runs.lean ====
/-
  The second launch — the aggregation out = adj · h + b, tiled 16 row blocks by 8 blocks of neighbours — as the
  pipeline runs it: what each grid point is handed and what it leaves. A point (i, k) adds to an accumulator kept
  between points the product of block (i, k) of adj with rows 2048k … 2048k + 2047 of h; the accumulator is set to
  zero first when k = 0, and when k = 7 the accumulator plus the bias row is stored into block i of the result.
  So there are three kinds of point: k = 0 (reset, no result), 0 < k < 7 (neither), k = 7 (result stored); at the
  first two the result window is idle and its buffer is handed back untouched.
  This module: the conditions in closed form over the 128 points, where the result window is idle, and the body
  run at each kind of point on whole staging buffers, the accumulator's final contents as the list of stores the
  run meets.
-/
import proofs.«164517_j44246753084001_2_alg».proof.Proof.Gen.Kernel.Launch
import proofs.«164517_j44246753084001_2_alg».proof.Proof.Gen.Kernel.Skeleton
import proofs.«164517_j44246753084001_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, over the grid -/

/-- "This is the first block of neighbours" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of neighbours" (k = 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block of neighbours nothing is stored into the result window: it is idle … -/
theorem idleAt1_3 : ∀ t : Fin cfg1.N, ¬cond1_1 (grid1.coords t) → cfg1.idle 3 (grid1.coords t) = true := by decide +kernel
/-- … and its block is not written back. -/
theorem noFlush1_3 : ∀ t : Fin cfg1.N, ¬cond1_1 (grid1.coords t) → (cfg1.win 3).flush t = false := by decide +kernel
/-- At the last block of neighbours the result window is stored into. -/
theorem liveAt1_3 : ∀ t : Fin cfg1.N, cond1_1 (grid1.coords t) → cfg1.idle 3 (grid1.coords t) = false := by decide +kernel

/-! ## The staging buffers at a point, and the accumulator -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The accumulator: a whole buffer of the kernel's own, kept between points. -/
abbrev accM : Memref sig .tc .vmem S1024x64 .f32 := Memref.whole cc1_scratch0
abbrev accV : View sig .tc .vmem S1024x64 .f32 := accM.view
/-- One staging buffer of the result window, through which its contents are stated. -/
abbrev resV : View sig .tc .vmem S1024x64 .f32 := (Memref.whole cc1_stg3_0 : Memref sig .tc .vmem S1024x64 .f32).view

set_option maxHeartbeats 1000000 in
/-- A point with k = 0 (and k ≠ 7). -/
noncomputable def kernelRun1_A (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S16384x64 .bf16) (x2 : Vec F S1x64 .f32) :
    { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A point with 0 < k < 7: the accumulator is handed over at what the point before left (`xs`). -/
noncomputable def kernelRun1_B (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S16384x64 .bf16) (x2 : Vec F S1x64 .f32) (xs : Vec F S1024x64 .f32) :
    { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A point with k = 7: the accumulator is handed over at what the point before left (`xs`), and the result
    window's buffer, at anything, is stored into. -/
noncomputable def kernelRun1_C (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) :
    Σ' (L3 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## The stores of each kind of point cover the buffers they go into -/

theorem acover_A (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S16384x64 .bf16) (x2 : Vec F S1x64 .f32) (y : S1024x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x64.size (by sl_kernel_rfl) y

theorem acover_B (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S16384x64 .bf16) (x2 : Vec F S1x64 .f32) (xs : Vec F S1024x64 .f32) (y : S1024x64.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S1024x64.size (by sl_kernel_rfl) y

theorem acover_C (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) (y : S1024x64.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x64.size (by sl_kernel_rfl) y

theorem rcover_C (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) (y : S1024x64.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x64.size (by sl_kernel_rfl) y

end Cert.Kernel.Hand

end
-- ==== Proof.K.Region1.lean ====
/-
  The second launch's proof data. Between points the accumulator holds a partial aggregation; the data below
  names it point by point (`accAt`: the run of the point's kind over the point's blocks, and over what the
  point before left), names what a point with k = 7 stores into the result window (`resAt`), and shows that
  the body, called by the pipeline at any point, takes the invariant before the point to the invariant after it.
  Before the first point the accumulator may hold anything; after the last it is forgotten again.
-/
import proofs.«164517_j44246753084001_2_alg».proof.Proof.K.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the core's buffer contents when the launch is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The launch's own buffers beside the accumulator -/

/-- The first launch's staging buffers (nothing to this launch: each whole at some contents), beside `P`. -/
def withStg (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- What the pipeline hands the body besides the windows: those buffers, the accumulator at anything, the generator register. -/
theorem PhiA1_eq (c : Dev nD) :
    (Pipeline.ΦA spec1 c : sProp 𝕄) = iprop(withStg c iprop(∃ d, owns (c : Thread nD τ) accM fullShare d) ∗ (∃ r, prngReg c r)) := by
  unfold Pipeline.ΦA withStg; rw [scopedRest1_eq]; simp only [accM, owns_whole]; try rfl

/-! ## What each kind of point leaves in the accumulator and in the result window -/

def accA (c : Dev nD) (t : Fin cfg1.N) (hc0 : cond1_0 (grid1.coords t)) (hc1 : ¬cond1_1 (grid1.coords t)) : Vec F S1024x64 .f32 :=
  accV.read (Elt F) (accV.writes (Elt F) accV.junk (kernelRun1_A c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t)).1)
def accB (c : Dev nD) (t : Fin cfg1.N) (hc0 : ¬cond1_0 (grid1.coords t)) (hc1 : ¬cond1_1 (grid1.coords t)) (xs : Vec F S1024x64 .f32) : Vec F S1024x64 .f32 :=
  accV.read (Elt F) (accV.writes (Elt F) accV.junk (kernelRun1_B c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t) xs).1)
def accC (c : Dev nD) (t : Fin cfg1.N) (hc0 : ¬cond1_0 (grid1.coords t)) (hc1 : cond1_1 (grid1.coords t)) (xs : Vec F S1024x64 .f32) : Vec F S1024x64 .f32 :=
  accV.read (Elt F) (accV.writes (Elt F) accV.junk (kernelRun1_C c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t) xs).2.1)
def resC (c : Dev nD) (t : Fin cfg1.N) (hc0 : ¬cond1_0 (grid1.coords t)) (hc1 : cond1_1 (grid1.coords t)) (xs : Vec F S1024x64 .f32) : Vec F S1024x64 .f32 :=
  resV.read (Elt F) (resV.writes (Elt F) resV.junk (kernelRun1_C c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t) xs).1)
/-- A placeholder for the result window where it is idle: nothing consults it. -/
def resIdle : Vec F S1024x64 .f32 := resV.read (Elt F) (resV.writes (Elt F) resV.junk [])

/-- THE ACCUMULATION: the accumulator after the body at position `n`, by recursion on the position. -/
def accAt (c : Dev nD) : (n : ℕ) → n < cfg1.N → Vec F S1024x64 .f32
  | 0, hn => accA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      accA V c ⟨n + 1, hn⟩ ((hcond1_0 ⟨n + 1, hn⟩).mpr h0) (fun h => (fun h => by (try dsimp only at h); omega) ((hcond1_1 ⟨n + 1, hn⟩).mp h))
    else if h1 : (n + 1) % 8 = 7 then
      accC V c ⟨n + 1, hn⟩ (fun h => h0 ((hcond1_0 ⟨n + 1, hn⟩).mp h)) ((hcond1_1 ⟨n + 1, hn⟩).mpr h1) (accAt c n (Nat.lt_of_succ_lt hn))
    else
      accB V c ⟨n + 1, hn⟩ (fun h => h0 ((hcond1_0 ⟨n + 1, hn⟩).mp h)) (fun h => h1 ((hcond1_1 ⟨n + 1, hn⟩).mp h)) (accAt c n (Nat.lt_of_succ_lt hn))

theorem accAt_A (c : Dev nD) (t : Fin cfg1.N) (h0 : t.val % 8 = 0) :
    accAt V c t.val t.isLt = accA V c t ((hcond1_0 t).mpr h0) (fun h => (fun h => by omega) ((hcond1_1 t).mp h)) := by
  obtain ⟨n, hn⟩ := t
  cases n with
  | zero => exact rfl
  | succ n => exact (dif_pos h0).trans rfl

theorem accAt_B (c : Dev nD) (t : Fin cfg1.N) (h0 : ¬t.val % 8 = 0) (h1 : ¬t.val % 8 = 7) :
    accAt V c t.val t.isLt = accB V c t (fun h => h0 ((hcond1_0 t).mp h)) (fun h => h1 ((hcond1_1 t).mp h)) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 8 = 0) (h1 : t.val % 8 = 7) :
    accAt V c t.val t.isLt = accC V c t (fun h => h0 ((hcond1_0 t).mp h)) ((hcond1_1 t).mpr h1) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result window's staging buffer holds after the body at point `t`: at k = 7 the stores of that kind of
    point over what the point before left in the accumulator; elsewhere the placeholder. -/
def resAt (c : Dev nD) (t : Fin cfg1.N) : Vec F S1024x64 .f32 :=
  if h1 : t.val % 8 = 7 then
    resC V c t (fun h => (fun h => by omega) ((hcond1_0 t).mp h)) ((hcond1_1 t).mpr h1) (accAt V c (t.val - 1) (Nat.lt_of_le_of_lt (Nat.sub_le _ _) t.isLt))
  else resIdle

theorem resAt_C (c : Dev nD) (t : Fin cfg1.N) (h0 : ¬t.val % 8 = 0) (h1 : t.val % 8 = 7) :
    resAt V c t = resC V c t (fun h => h0 ((hcond1_0 t).mp h)) ((hcond1_1 t).mpr h1) (accAt V c (t.val - 1) (Nat.lt_of_le_of_lt (Nat.sub_le _ _) t.isLt)) := by
  unfold resAt; exact dif_pos h1

/-! ## The invariant between points -/

/-- Before position `n`: before the first point the accumulator at anything; afterwards at what the point before left. -/
def PhiS (c : Dev nD) : (n : ℕ) → n ≤ cfg1.N → sProp 𝕄
  | 0, _ => Pipeline.ΦA spec1 c
  | n + 1, hn => iprop(withStg c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withStg c (owns (c : Thread nD τ) accM fullShare (accAt V c n hn)) ∗ (∃ r, prngReg c r)) := rfl
theorem PhiS_pos (c : Dev nD) (n : ℕ) (h : n ≤ cfg1.N) (hz : n ≠ 0) :
    PhiS V c n h = iprop(withStg c (owns (c : Thread nD τ) accM fullShare (accAt V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => resAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = resAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point takes the invariant before the point, with the windows' buffers, to the invariant after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt_A V c t h0]
    unfold accA; (try dsimp only)
    by_cases hz : t.val = 0
    · rw [PhiS_castSucc V c t, PhiS_zero V c _ _ hz, PhiA1_eq]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => (fun h => by omega) ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => (fun h => by omega) ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt_C V c t h0 h1, resAt_C V c t h0 h1]
      unfold accC resC; (try dsimp only)
      rw [PhiS_castSucc V c t, PhiS_pos V c _ _ hz]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (rcover_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [accAt_B V c t h0 h1]
      unfold accB; (try dsimp only)
      rw [PhiS_castSucc V c t, PhiS_pos V c _ _ hz]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold withStg
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

end Region1

end Cert.Kernel.Hand

end
-- ==== Proof.K.Run.lean ====
/- The run of `Kernel`'s @main, for any float instance `F`: the buffer contents at each boundary between its
   three segments (the first pallas_call, the host reshape of the bias, the second pallas_call) as a fold from the
   launch memory; each pallas_call as a region over the thread state "every unscoped buffer at the boundary's
   contents, the generator register at some state, nothing owed"; the launch over the segments; and what the fold
   holds at the arrays the value argument reads. -/
import proofs.«164517_j44246753084001_2_alg».proof.Proof.K.Region0
import proofs.«164517_j44246753084001_2_alg».proof.Proof.K.Region1
import proofs.«164517_j44246753084001_2_alg».proof.Proof.Gen.Kernel.Launch
import proofs.«164517_j44246753084001_2_alg».proof.Proof.Gen.Kernel.Skeleton
import proofs.«164517_j44246753084001_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

@main is the first pallas_call, one host reshape (the bias `main_arg3` to the row `main_v1`), the second
pallas_call. No host operation precedes the first pallas_call, so it is entered from the launch contents.

## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V1 : (c : Dev nD) → (b : Ref sig .tc) → Buf (Elt F) ((c : Thread nD τ).loc b) := fun c b => W0 m ρ c b
/-- At region 0's exit: its arrays at what the pipeline leaves (the inputs as entered, the output's write-backs
    folded), every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### Region 0's entry is the launch memory -/

theorem V1_main_arg0 (c : Dev nD) : V1 m ρ c main_arg0 = m ((c : Thread nD τ).loc main_arg0) := rfl
theorem V1_main_arg2 (c : Dev nD) : V1 m ρ c main_arg2 = m ((c : Thread nD τ).loc main_arg2) := rfl

/-! ### What the reshape leaves: it writes `main_v1` only -/

theorem W3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v0 (c : Dev nD) : W3 m ρ c (Proc.devRef .tc main_v0) = W2 m ρ c (Proc.devRef .tc main_v0) :=
  StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The bias is no array of region 0: at its exit it is as launched. -/
theorem W2_main_arg3 (c : Dev nD) : W2 m ρ c (Proc.devRef .tc main_arg3) = m ((c : Thread nD τ).loc main_arg3) :=
  (W2_of_ne m ρ c main_arg3 (by decide)).trans rfl

/-! ### Region 1's entry: the first pallas_call's output, the adjacency as launched, the bias as a row -/

/-- The second pallas_call reads, as its feature matrix, what the first one's write-backs left in `main_v0`. -/
theorem V3_main_v0 (c : Dev nD) : V3 m ρ c main_v0 = (dat0 (V1 m ρ) c).arrAt 2 cfg0.N :=
  (W3_main_v0 m ρ c).trans (W2_arr m ρ c 2)
theorem V3_main_arg1 (c : Dev nD) : V3 m ρ c main_arg1 = m ((c : Thread nD τ).loc main_arg1) :=
  (W3_main_arg1 m ρ c).trans ((W2_of_ne m ρ c main_arg1 (by decide)).trans rfl)
/-- The row `main_v1` is the bias's 64 elements in row-major order at shape 1×64. -/
theorem V3_main_v1 (c : Dev nD) :
    V3 m ρ c main_v1 = shapeCast S1x64 (m ((c : Thread nD τ).loc main_arg3)) shapeCasts_S64_S1x64 := by
  have h : V3 m ρ c main_v1 = shapeCast S1x64 (W2 m ρ c (Proc.devRef .tc main_arg3)) shapeCasts_S64_S1x64 := by
    show StableHlo.after hostOps1 (W2 m ρ c) (Proc.devRef .tc main_v1) = _
    dsimp only [hostOps1]
    after_results
    rfl
  rw [h, W2_main_arg3]

/-! ### The arguments end as launched: the reshape writes none, and a region reads one through an input window
    or bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_main_arg0 m ρ c
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := W3_main_arg1 m ρ c
    _ = W0 m ρ c (Proc.devRef .tc main_arg1) := W2_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_main_arg2 m ρ c
    _ = W0 m ρ c (Proc.devRef .tc main_arg2) := (W2_arr m ρ c 1).trans (((dat0 (V1 m ρ) c).arrAt_in 1 rfl _).trans (A_eq0 (V1 m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_main_arg3 m ρ c
    _ = m ((c : Thread nD τ).loc main_arg3) := W2_main_arg3 m ρ c
/-- The result array ends at what the second pallas_call's write-backs leave. -/
theorem W4_main_v2 (c : Dev nD) : W4 m ρ c (Proc.devRef .tc main_v2) = (dat1 (V3 m ρ) c).arrAt 3 cfg1.N :=
  W4_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at the launch contents `W0`, left at `W2`
    (what the reshape is entered from). Its arrays split out of the unscoped buffers and put back at the exit
    contents; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4` (what the launch reads
    at the end). Its invariant is not constant — between points it also tracks the accumulator's contents —: what
    the region is handed makes the invariant before the first point (`hin1`), and the invariant after the last
    gives it back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the first pallas_call, the reshape from its exit contents, the second pallas_call. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each core's every unscoped buffer holds the
    last boundary's contents `W4`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME at any `F`: @main runs (terminates, no fault) and every argument array ends as launched — each read
    off the last boundary's contents, which at an argument's buffer walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KI.Region0.lean ====
/- The frame half of the first pallas_call of `KernelIdeal`'s @main (kernel function `cc0__linear_kernel`),
   at a parameter `V` — the TensorCore's buffer contents when the region is entered — and for any float
   instance `F`: each window's block at a grid point, what the body leaves in the output window's buffer as a
   function of the two input blocks, the body's triple, the pipeline's proof data and its body obligation. -/
import proofs.«164517_j44246753084001_2_alg».proof.Proof.Gen.KernelIdeal.Launch
import proofs.«164517_j44246753084001_2_alg».proof.Proof.Gen.KernelIdeal.Skeleton
import proofs.«164517_j44246753084001_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents (2048 rows): the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: the first pallas_call, `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 2048×128 row block of the activations, whose block index moves with the point) holds its
    block in its current staging buffer at every point, for ANY proof data whose array is `V`'s (`hA`) and whose
    body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole 64×128 weight, whose block index is constant: fetched at the first point only) holds
    its block in its staging buffer at every point, fetched there or not: unfetched, the block index has not
    moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2048×128 activation block, -/
abbrev r0_x : Rect S2048x128 := Rect.unit (s := S2048x128) ![0, 0] S2048x128.size inb_S2048x128_S2048x128_0_0
/-- the whole 64×128 weight, -/
abbrev r0_w : Rect S64x128 := Rect.unit (s := S64x128) ![0, 0] S64x128.size inb_S64x128_S64x128_0_0
/-- and the whole 2048×64 output block. -/
abbrev r0_o : Rect S2048x64 := Rect.unit (s := S2048x64) ![0, 0] S2048x64.size inb_S2048x64_S2048x64_0_0

/-! ## What the body leaves in the output window's buffer -/

/-- Window 2's staging buffer after the body, from the input windows' blocks: its one store, of the whole block —
    the product of the activation block with the transposed weight, both rounded to bf16, accumulated in f32 from
    zero and rounded to bf16 (the skeleton's payload `k0_pay1`). -/
def out0_2 (x0 : Vec F S2048x128 .f32) (x1 : Vec F S64x128 .f32) : Vec F S2048x64 .bf16 :=
  View.canon [⟨r0_o, k0_pay1 (View.ld x0 r0_x) (View.ld x1 r0_w)⟩]

/-- The one store is of the whole buffer, so it covers it. -/
theorem cover0_2 (p0 : Vec F S2048x64 .bf16) (y : S2048x64.Idx) :
    ∃ pc ∈ ([⟨r0_o, p0⟩] : List (View.Piece (Elt F) S2048x64 .bf16)), y ∈ pc.1.set :=
  View.cover_of_tiled [⟨r0_o, p0⟩] S2048x64.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton — two loads, a load of the output's buffer whose value nothing reads, and
    one store of the whole output. -/
theorem sound_kernel0 (c : Dev nD) (E : Set ℕ) (i : grid0.Coords) (arg1 : Memref sig .tc .vmem S2048x128 .f32) (harg1 : arg1.IsWhole) (arg2 : Memref sig .tc .vmem S64x128 .f32) (harg2 : arg2.IsWhole) (arg3 : Memref sig .tc .vmem S2048x64 .bf16) (harg3 : arg3.IsWhole)
    (x0 : Vec F S2048x128 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region1Runs.lean ====
/-
  The second launch — the aggregation out = adj · h + b, tiled 16 row blocks by 8 blocks of neighbours — as the
  pipeline runs it: what each grid point is handed and what it leaves. A point (i, k) adds to an accumulator kept
  between points the product of block (i, k) of adj with rows 2048k … 2048k + 2047 of h; the accumulator is set to
  zero first when k = 0, and when k = 7 the accumulator plus the bias row is stored into block i of the result.
  So there are three kinds of point: k = 0 (reset, no result), 0 < k < 7 (neither), k = 7 (result stored); at the
  first two the result window is idle and its buffer is handed back untouched.
  This module: the conditions in closed form over the 128 points, where the result window is idle, and the body
  run at each kind of point on whole staging buffers, the accumulator's final contents as the list of stores the
  run meets.
-/
import proofs.«164517_j44246753084001_2_alg».proof.Proof.Gen.KernelIdeal.Launch
import proofs.«164517_j44246753084001_2_alg».proof.Proof.Gen.KernelIdeal.Skeleton
import proofs.«164517_j44246753084001_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, over the grid -/

/-- "This is the first block of neighbours" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of neighbours" (k = 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block of neighbours nothing is stored into the result window: it is idle … -/
theorem idleAt1_3 : ∀ t : Fin cfg1.N, ¬cond1_1 (grid1.coords t) → cfg1.idle 3 (grid1.coords t) = true := by decide +kernel
/-- … and its block is not written back. -/
theorem noFlush1_3 : ∀ t : Fin cfg1.N, ¬cond1_1 (grid1.coords t) → (cfg1.win 3).flush t = false := by decide +kernel
/-- At the last block of neighbours the result window is stored into. -/
theorem liveAt1_3 : ∀ t : Fin cfg1.N, cond1_1 (grid1.coords t) → cfg1.idle 3 (grid1.coords t) = false := by decide +kernel

/-! ## The staging buffers at a point, and the accumulator -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The accumulator: a whole buffer of the kernel's own, kept between points. -/
abbrev accM : Memref sig .tc .vmem S1024x64 .f32 := Memref.whole cc1_scratch0
abbrev accV : View sig .tc .vmem S1024x64 .f32 := accM.view
/-- One staging buffer of the result window, through which its contents are stated. -/
abbrev resV : View sig .tc .vmem S1024x64 .f32 := (Memref.whole cc1_stg3_0 : Memref sig .tc .vmem S1024x64 .f32).view

set_option maxHeartbeats 1000000 in
/-- A point with k = 0 (and k ≠ 7). -/
noncomputable def kernelRun1_A (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S16384x64 .bf16) (x2 : Vec F S1x64 .f32) :
    { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A point with 0 < k < 7: the accumulator is handed over at what the point before left (`xs`). -/
noncomputable def kernelRun1_B (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S16384x64 .bf16) (x2 : Vec F S1x64 .f32) (xs : Vec F S1024x64 .f32) :
    { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, fun xi3 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A point with k = 7: the accumulator is handed over at what the point before left (`xs`), and the result
    window's buffer, at anything, is stored into. -/
noncomputable def kernelRun1_C (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) :
    Σ' (L3 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## The stores of each kind of point cover the buffers they go into -/

theorem acover_A (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S16384x64 .bf16) (x2 : Vec F S1x64 .f32) (y : S1024x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x64.size (by sl_kernel_rfl) y

theorem acover_B (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S16384x64 .bf16) (x2 : Vec F S1x64 .f32) (xs : Vec F S1024x64 .f32) (y : S1024x64.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S1024x64.size (by sl_kernel_rfl) y

theorem acover_C (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) (y : S1024x64.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x64.size (by sl_kernel_rfl) y

theorem rcover_C (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) (y : S1024x64.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x64.size (by sl_kernel_rfl) y

end Cert.KernelIdeal.Hand

end
-- ==== Proof.KI.Region1.lean ====
/-
  The second launch's proof data. Between points the accumulator holds a partial aggregation; the data below
  names it point by point (`accAt`: the run of the point's kind over the point's blocks, and over what the
  point before left), names what a point with k = 7 stores into the result window (`resAt`), and shows that
  the body, called by the pipeline at any point, takes the invariant before the point to the invariant after it.
  Before the first point the accumulator may hold anything; after the last it is forgotten again.
-/
import proofs.«164517_j44246753084001_2_alg».proof.Proof.KI.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the core's buffer contents when the launch is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The launch's own buffers beside the accumulator -/

/-- The first launch's staging buffers (nothing to this launch: each whole at some contents), beside `P`. -/
def withStg (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- What the pipeline hands the body besides the windows: those buffers, the accumulator at anything, the generator register. -/
theorem PhiA1_eq (c : Dev nD) :
    (Pipeline.ΦA spec1 c : sProp 𝕄) = iprop(withStg c iprop(∃ d, owns (c : Thread nD τ) accM fullShare d) ∗ (∃ r, prngReg c r)) := by
  unfold Pipeline.ΦA withStg; rw [scopedRest1_eq]; simp only [accM, owns_whole]; try rfl

/-! ## What each kind of point leaves in the accumulator and in the result window -/

def accA (c : Dev nD) (t : Fin cfg1.N) (hc0 : cond1_0 (grid1.coords t)) (hc1 : ¬cond1_1 (grid1.coords t)) : Vec F S1024x64 .f32 :=
  accV.read (Elt F) (accV.writes (Elt F) accV.junk (kernelRun1_A c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t)).1)
def accB (c : Dev nD) (t : Fin cfg1.N) (hc0 : ¬cond1_0 (grid1.coords t)) (hc1 : ¬cond1_1 (grid1.coords t)) (xs : Vec F S1024x64 .f32) : Vec F S1024x64 .f32 :=
  accV.read (Elt F) (accV.writes (Elt F) accV.junk (kernelRun1_B c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t) xs).1)
def accC (c : Dev nD) (t : Fin cfg1.N) (hc0 : ¬cond1_0 (grid1.coords t)) (hc1 : cond1_1 (grid1.coords t)) (xs : Vec F S1024x64 .f32) : Vec F S1024x64 .f32 :=
  accV.read (Elt F) (accV.writes (Elt F) accV.junk (kernelRun1_C c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t) xs).2.1)
def resC (c : Dev nD) (t : Fin cfg1.N) (hc0 : ¬cond1_0 (grid1.coords t)) (hc1 : cond1_1 (grid1.coords t)) (xs : Vec F S1024x64 .f32) : Vec F S1024x64 .f32 :=
  resV.read (Elt F) (resV.writes (Elt F) resV.junk (kernelRun1_C c (grid1.coords t) (ms1_0 t) (hs1_0 t) (ms1_1 t) (hs1_1 t) (ms1_2 t) (hs1_2 t) (ms1_3 t) (hs1_3 t) accM (Memref.isWhole_whole _) hc0 hc1 (iblk1 V c 0 t) (iblk1 V c 1 t) (iblk1 V c 2 t) xs).1)
/-- A placeholder for the result window where it is idle: nothing consults it. -/
def resIdle : Vec F S1024x64 .f32 := resV.read (Elt F) (resV.writes (Elt F) resV.junk [])

/-- THE ACCUMULATION: the accumulator after the body at position `n`, by recursion on the position. -/
def accAt (c : Dev nD) : (n : ℕ) → n < cfg1.N → Vec F S1024x64 .f32
  | 0, hn => accA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      accA V c ⟨n + 1, hn⟩ ((hcond1_0 ⟨n + 1, hn⟩).mpr h0) (fun h => (fun h => by (try dsimp only at h); omega) ((hcond1_1 ⟨n + 1, hn⟩).mp h))
    else if h1 : (n + 1) % 8 = 7 then
      accC V c ⟨n + 1, hn⟩ (fun h => h0 ((hcond1_0 ⟨n + 1, hn⟩).mp h)) ((hcond1_1 ⟨n + 1, hn⟩).mpr h1) (accAt c n (Nat.lt_of_succ_lt hn))
    else
      accB V c ⟨n + 1, hn⟩ (fun h => h0 ((hcond1_0 ⟨n + 1, hn⟩).mp h)) (fun h => h1 ((hcond1_1 ⟨n + 1, hn⟩).mp h)) (accAt c n (Nat.lt_of_succ_lt hn))

theorem accAt_A (c : Dev nD) (t : Fin cfg1.N) (h0 : t.val % 8 = 0) :
    accAt V c t.val t.isLt = accA V c t ((hcond1_0 t).mpr h0) (fun h => (fun h => by omega) ((hcond1_1 t).mp h)) := by
  obtain ⟨n, hn⟩ := t
  cases n with
  | zero => exact rfl
  | succ n => exact (dif_pos h0).trans rfl

theorem accAt_B (c : Dev nD) (t : Fin cfg1.N) (h0 : ¬t.val % 8 = 0) (h1 : ¬t.val % 8 = 7) :
    accAt V c t.val t.isLt = accB V c t (fun h => h0 ((hcond1_0 t).mp h)) (fun h => h1 ((hcond1_1 t).mp h)) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 8 = 0) (h1 : t.val % 8 = 7) :
    accAt V c t.val t.isLt = accC V c t (fun h => h0 ((hcond1_0 t).mp h)) ((hcond1_1 t).mpr h1) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result window's staging buffer holds after the body at point `t`: at k = 7 the stores of that kind of
    point over what the point before left in the accumulator; elsewhere the placeholder. -/
def resAt (c : Dev nD) (t : Fin cfg1.N) : Vec F S1024x64 .f32 :=
  if h1 : t.val % 8 = 7 then
    resC V c t (fun h => (fun h => by omega) ((hcond1_0 t).mp h)) ((hcond1_1 t).mpr h1) (accAt V c (t.val - 1) (Nat.lt_of_le_of_lt (Nat.sub_le _ _) t.isLt))
  else resIdle

theorem resAt_C (c : Dev nD) (t : Fin cfg1.N) (h0 : ¬t.val % 8 = 0) (h1 : t.val % 8 = 7) :
    resAt V c t = resC V c t (fun h => h0 ((hcond1_0 t).mp h)) ((hcond1_1 t).mpr h1) (accAt V c (t.val - 1) (Nat.lt_of_le_of_lt (Nat.sub_le _ _) t.isLt)) := by
  unfold resAt; exact dif_pos h1

/-! ## The invariant between points -/

/-- Before position `n`: before the first point the accumulator at anything; afterwards at what the point before left. -/
def PhiS (c : Dev nD) : (n : ℕ) → n ≤ cfg1.N → sProp 𝕄
  | 0, _ => Pipeline.ΦA spec1 c
  | n + 1, hn => iprop(withStg c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withStg c (owns (c : Thread nD τ) accM fullShare (accAt V c n hn)) ∗ (∃ r, prngReg c r)) := rfl
theorem PhiS_pos (c : Dev nD) (n : ℕ) (h : n ≤ cfg1.N) (hz : n ≠ 0) :
    PhiS V c n h = iprop(withStg c (owns (c : Thread nD τ) accM fullShare (accAt V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => resAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = resAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point takes the invariant before the point, with the windows' buffers, to the invariant after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt_A V c t h0]
    unfold accA; (try dsimp only)
    by_cases hz : t.val = 0
    · rw [PhiS_castSucc V c t, PhiS_zero V c _ _ hz, PhiA1_eq]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => (fun h => by omega) ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => (fun h => by omega) ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt_C V c t h0 h1, resAt_C V c t h0 h1]
      unfold accC resC; (try dsimp only)
      rw [PhiS_castSucc V c t, PhiS_pos V c _ _ hz]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (rcover_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [accAt_B V c t h0 h1]
      unfold accB; (try dsimp only)
      rw [PhiS_castSucc V c t, PhiS_pos V c _ _ hz]
      unfold withStg
      iintro ⟨⟨⟨HA, HB, HC, HD, HE, HS⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HA HB HC HD HE HS Hg]
      · isplitr [Hg]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (acover_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold withStg
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

end Region1

end Cert.KernelIdeal.Hand

end
-- ==== Proof.KI.Run.lean ====
/- The run of `KernelIdeal`'s @main, for any float instance `F`: the buffer contents at each boundary between its
   three segments (the first pallas_call, the host reshape of the bias, the second pallas_call) as a fold from the
   launch memory; each pallas_call as a region over the thread state "every unscoped buffer at the boundary's
   contents, the generator register at some state, nothing owed"; the launch over the segments; and what the fold
   holds at the arrays the value argument reads. -/
import proofs.«164517_j44246753084001_2_alg».proof.Proof.KI.Region0
import proofs.«164517_j44246753084001_2_alg».proof.Proof.KI.Region1
import proofs.«164517_j44246753084001_2_alg».proof.Proof.Gen.KernelIdeal.Launch
import proofs.«164517_j44246753084001_2_alg».proof.Proof.Gen.KernelIdeal.Skeleton
import proofs.«164517_j44246753084001_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

@main is the first pallas_call, one host reshape (the bias `main_arg3` to the row `main_v1`), the second
pallas_call. No host operation precedes the first pallas_call, so it is entered from the launch contents.

## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V1 : (c : Dev nD) → (b : Ref sig .tc) → Buf (Elt F) ((c : Thread nD τ).loc b) := fun c b => W0 m ρ c b
/-- At region 0's exit: its arrays at what the pipeline leaves (the inputs as entered, the output's write-backs
    folded), every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### Region 0's entry is the launch memory -/

theorem V1_main_arg0 (c : Dev nD) : V1 m ρ c main_arg0 = m ((c : Thread nD τ).loc main_arg0) := rfl
theorem V1_main_arg2 (c : Dev nD) : V1 m ρ c main_arg2 = m ((c : Thread nD τ).loc main_arg2) := rfl

/-! ### What the reshape leaves: it writes `main_v1` only -/

theorem W3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_main_v0 (c : Dev nD) : W3 m ρ c (Proc.devRef .tc main_v0) = W2 m ρ c (Proc.devRef .tc main_v0) :=
  StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The bias is no array of region 0: at its exit it is as launched. -/
theorem W2_main_arg3 (c : Dev nD) : W2 m ρ c (Proc.devRef .tc main_arg3) = m ((c : Thread nD τ).loc main_arg3) :=
  (W2_of_ne m ρ c main_arg3 (by decide)).trans rfl

/-! ### Region 1's entry: the first pallas_call's output, the adjacency as launched, the bias as a row -/

/-- The second pallas_call reads, as its feature matrix, what the first one's write-backs left in `main_v0`. -/
theorem V3_main_v0 (c : Dev nD) : V3 m ρ c main_v0 = (dat0 (V1 m ρ) c).arrAt 2 cfg0.N :=
  (W3_main_v0 m ρ c).trans (W2_arr m ρ c 2)
theorem V3_main_arg1 (c : Dev nD) : V3 m ρ c main_arg1 = m ((c : Thread nD τ).loc main_arg1) :=
  (W3_main_arg1 m ρ c).trans ((W2_of_ne m ρ c main_arg1 (by decide)).trans rfl)
/-- The row `main_v1` is the bias's 64 elements in row-major order at shape 1×64. -/
theorem V3_main_v1 (c : Dev nD) :
    V3 m ρ c main_v1 = shapeCast S1x64 (m ((c : Thread nD τ).loc main_arg3)) shapeCasts_S64_S1x64 := by
  have h : V3 m ρ c main_v1 = shapeCast S1x64 (W2 m ρ c (Proc.devRef .tc main_arg3)) shapeCasts_S64_S1x64 := by
    show StableHlo.after hostOps1 (W2 m ρ c) (Proc.devRef .tc main_v1) = _
    dsimp only [hostOps1]
    after_results
    rfl
  rw [h, W2_main_arg3]

/-! ### The arguments end as launched: the reshape writes none, and a region reads one through an input window
    or bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_main_arg0 m ρ c
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := W3_main_arg1 m ρ c
    _ = W0 m ρ c (Proc.devRef .tc main_arg1) := W2_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_main_arg2 m ρ c
    _ = W0 m ρ c (Proc.devRef .tc main_arg2) := (W2_arr m ρ c 1).trans (((dat0 (V1 m ρ) c).arrAt_in 1 rfl _).trans (A_eq0 (V1 m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_main_arg3 m ρ c
    _ = m ((c : Thread nD τ).loc main_arg3) := W2_main_arg3 m ρ c
/-- The result array ends at what the second pallas_call's write-backs leave. -/
theorem W4_main_v2 (c : Dev nD) : W4 m ρ c (Proc.devRef .tc main_v2) = (dat1 (V3 m ρ) c).arrAt 3 cfg1.N :=
  W4_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at the launch contents `W0`, left at `W2`
    (what the reshape is entered from). Its arrays split out of the unscoped buffers and put back at the exit
    contents; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4` (what the launch reads
    at the end). Its invariant is not constant — between points it also tracks the accumulator's contents —: what
    the region is handed makes the invariant before the first point (`hin1`), and the invariant after the last
    gives it back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the first pallas_call, the reshape from its exit contents, the second pallas_call. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each core's every unscoped buffer holds the
    last boundary's contents `W4`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME at any `F`: @main runs (terminates, no fault) and every argument array ends as launched — each read
    off the last boundary's contents, which at an argument's buffer walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.PayIdeal.lean ====
/-
  The two kernel bodies' arithmetic read at one entry, over the extended reals (a float is an extended
  real, a change of format is the identity, every operation is exact).

  The first body rounds x and w to the narrow format (the identity here), transposes w, and multiplies:
  entry (p, q) of its result is the inner product of row p of x with row q of w, ∑ l, x (p, l) · w (q, l).
  The second body has three values: the zero block (every entry 0); the accumulation step, which adds to
  the accumulator the product of a block of a with a block of h, entry (p, q) being
  acc (p, q) + ∑ k, a (p, k) · h (k, q); and the closing step, which adds the one row of the bias to
  every row of the accumulator, acc (p, q) + b (0, q).
-/
import proofs.«164517_j44246753084001_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«164517_j44246753084001_2_alg».proof.Proof.LibPlainDot

noncomputable section

namespace Cert.PayIdeal

open Idealize.ShloMosaic Idealize.ShloMosaic.ValueIdx Cert.KernelIdeal Cert.KernelIdeal.Gen

/-- The first body's dimension numbers are the plain product's [2048, 128] × [128, 64]. -/
theorem dot_proj_eq : dot_S2048x128_S128x64_S2048x64_1_0_0_1_n_n = DotDims.plain 2048 128 64 := rfl

/-- The second body's dimension numbers are the plain product's [1024, 2048] × [2048, 64]. -/
theorem dot_acc_eq : dot_S1024x2048_S2048x64_S1024x64_1_0_0_1_n_n = DotDims.plain 1024 2048 64 := rfl

/-- The first body at entry (p, q): the inner product of row p of x with row q of w. -/
theorem pay_proj (x : Vec Ideal S2048x128 .f32) (w : Vec Ideal S64x128 .f32) (p : Fin 2048) (q : Fin 64) :
    k0_pay1 (F := Ideal) x w (ix2 p q) = ∑ l : Fin 128, x (ix2 p l) * w (ix2 q l) := by
  unfold k0_pay1
  refine (PlainDot.matmul_zero_apply (M := 2048) (K := 128) (N := 64) none _ _ (ix2 p q)).trans ?_
  refine Finset.sum_congr rfl fun l _ => ?_
  exact congrArg (x (ix2 p l) * ·)
    (transpose_ix2_apply (a := 64) (b := 128) _ transposes_S64x128_p1_0_S128x64 l q)

/-- The zero block: every entry is 0. -/
theorem pay_zero (p : Fin 1024) (q : Fin 64) : k1_pay1 (F := Ideal) (ix2 p q) = 0 := by
  unfold k1_pay1
  refine (congrFun (shapeCast_self _ shapeCasts_S1024x64_S1024x64) (ix2 p q)).trans ?_
  exact Ideal.ofBits_zero_f32

/-- The accumulation step at entry (p, q): the accumulator there plus row p of a times column q of h. -/
theorem pay_acc (a : Vec Ideal S1024x2048 .f32) (hh : Vec Ideal S2048x64 .bf16) (acc : Vec Ideal S1024x64 .f32)
    (p : Fin 1024) (q : Fin 64) :
    k1_pay2 (F := Ideal) a hh acc (ix2 p q) = acc (ix2 p q) + ∑ kk : Fin 2048, a (ix2 p kk) * hh (ix2 kk q) := by
  unfold k1_pay2
  refine (congrFun (shapeCast_self _ shapeCasts_S1024x64_S1024x64) (ix2 p q)).trans ?_
  refine congrArg (acc (ix2 p q) + ·) ?_
  refine (PlainDot.matmul_zero_apply (M := 1024) (K := 2048) (N := 64) none _ _ (ix2 p q)).trans ?_
  refine Finset.sum_congr rfl fun kk _ => ?_
  exact congrArg (a (ix2 p kk) * ·)
    (congrFun (shapeCast_self hh shapeCasts_S2048x64_S2048x64) (ix2 kk q))

/-- The closing step at entry (p, q): the accumulator there plus the bias row at q. -/
theorem pay_bias (acc : Vec Ideal S1024x64 .f32) (bb : Vec Ideal S1x64 .f32) (p : Fin 1024) (q : Fin 64) :
    k1_pay3 (F := Ideal) acc bb (ix2 p q) = acc (ix2 p q) + bb (ix2 (0 : Fin 1) q) := by
  unfold k1_pay3
  refine congrArg (acc (ix2 p q) + ·) ?_
  refine (broadcastTo_1b_ab_apply (a := 1024) (b := 64) _ broadcasts_S1x64_S1024x64 p q).trans ?_
  exact congrFun (shapeCast_self bb shapeCasts_S1x64_S1x64) (ix2 (0 : Fin 1) q)

end Cert.PayIdeal

end
-- ==== Proof.Spec.lean ====
/-
  What the graph-convolution layer computes, entry by entry, over the extended reals.
  The projected features are h[r, c] = ∑ l, x[r, l] · W[c, l] (the rows of x against the rows of W), and the
  result is out[r, c] = (∑ k, adj[r, k] · h[k, c]) + b[c]: every node's row of the adjacency matrix against the
  projected features of all the nodes, plus the bias of the output feature. Both sides of the certificate are
  compared with this one function.
-/
import Idealize.ShloMosaic.PureOps.Ideal
import Idealize.ShloMosaic.Lib.ValueIdx

noncomputable section

namespace Cert.Spec

open Idealize.ShloMosaic Idealize.ShloMosaic.ValueIdx
open scoped BigOperators

/-- Entry (r, c) of the projected features: row r of x against row c of W. -/
def projAt (x : (⟨2, ![16384, 128]⟩ : Shape).Idx → EReal) (W : (⟨2, ![64, 128]⟩ : Shape).Idx → EReal)
    (r : Fin 16384) (c : Fin 64) : EReal :=
  ∑ l : Fin 128, x (ix2 r l) * W (ix2 c l)

/-- The projected features as an array. -/
def proj (x : (⟨2, ![16384, 128]⟩ : Shape).Idx → EReal) (W : (⟨2, ![64, 128]⟩ : Shape).Idx → EReal) :
    (⟨2, ![16384, 64]⟩ : Shape).Idx → EReal :=
  fun i => projAt x W (i 0) (i 1)

/-- One term of the aggregation of node r, output feature c: neighbour k's weight times its projected feature. -/
def term (x : (⟨2, ![16384, 128]⟩ : Shape).Idx → EReal) (adj : (⟨2, ![16384, 16384]⟩ : Shape).Idx → EReal)
    (W : (⟨2, ![64, 128]⟩ : Shape).Idx → EReal) (r : Fin 16384) (c : Fin 64) (k : Fin 16384) : EReal :=
  adj (ix2 r k) * projAt x W k c

/-- Entry (r, c) of the result: the aggregation over all neighbours, plus the bias. -/
def outAt (x : (⟨2, ![16384, 128]⟩ : Shape).Idx → EReal) (adj : (⟨2, ![16384, 16384]⟩ : Shape).Idx → EReal)
    (W : (⟨2, ![64, 128]⟩ : Shape).Idx → EReal) (b : (⟨1, ![64]⟩ : Shape).Idx → EReal)
    (r : Fin 16384) (c : Fin 64) : EReal :=
  (∑ k : Fin 16384, term x adj W r c k) + b (ix1 c)

/-- The result as an array. -/
def out (x : (⟨2, ![16384, 128]⟩ : Shape).Idx → EReal) (adj : (⟨2, ![16384, 16384]⟩ : Shape).Idx → EReal)
    (W : (⟨2, ![64, 128]⟩ : Shape).Idx → EReal) (b : (⟨1, ![64]⟩ : Shape).Idx → EReal) :
    (⟨2, ![16384, 64]⟩ : Shape).Idx → EReal :=
  fun i => outAt x adj W b (i 0) (i 1)

end Cert.Spec

end
-- ==== Proof.KI.Value0.lean ====
/-
  The projected features after the first pallas_call, over the extended reals: from the blocks the grid's
  points write back to the whole array.

  Point t of the grid of 8 reads rows 2048·t … 2048·t + 2047 of x and the whole of W, and writes back the
  2048 × 64 block whose entry (p, q) is ∑ l, x (2048·t + p, l) · W (q, l): rows 2048·t … of the
  specification's array h (r, c) = ∑ l, x (r, l) · W (c, l). Row r of the array is in the block of point
  r / 2048, so the eight blocks fill the array, and it ends holding h.
-/
import proofs.«164517_j44246753084001_2_alg».proof.Proof.KI.Region0
import proofs.«164517_j44246753084001_2_alg».proof.Proof.PayIdeal
import proofs.«164517_j44246753084001_2_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The whole-block rectangles start at the origin. -/
theorem origin : (![0, 0] : Fin 2 → Nat) = fun _ => 0 := funext fun a => by fin_cases a <;> rfl

/-- The index maps over the grid: the block of x and the block of the result are block t along the rows, the
    one block of W is the whole of it. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE ENTRY: when x0 is rows 2048·n … of X and x1 is W, entry j of the body's value is the specification's
    entry (2048·n + j₀, j₁). -/
theorem proj_entry (X : S16384x128.Idx → EReal) (W : S64x128.Idx → EReal)
    (x0 : Vec Ideal S2048x128 .f32) (x1 : Vec Ideal S64x128 .f32) (n : Nat) (j : S2048x64.Idx) (i : S16384x64.Idx)
    (hx0 : ∀ (y : S2048x128.Idx) (k : S16384x128.Idx), (k 0).val = n * 2048 + (y 0).val → (k 1).val = (y 1).val → x0 y = X k)
    (hx1 : ∀ y : S64x128.Idx, x1 y = W y)
    (hi0 : (i 0).val = n * 2048 + (j 0).val) (hi1 : (i 1).val = (j 1).val) :
    k0_pay1 (F := Ideal) x0 x1 j = Cert.Spec.proj X W i := by
  rw [eq_ix2 j]
  refine (Cert.PayIdeal.pay_proj x0 x1 (j 0) (j 1)).trans ?_
  show _ = ∑ l : Fin 128, X (ix2 (i 0) l) * W (ix2 (i 1) l)
  refine Finset.sum_congr rfl fun l _ => ?_
  refine congrArg₂ (· * ·) (hx0 (ix2 (j 0) l) (ix2 (i 0) l) hi0 rfl) ?_
  refine (hx1 _).trans (congrArg W ?_)
  funext a
  match a with
  | ⟨0, _⟩ => exact Fin.ext hi1.symm
  | ⟨1, _⟩ => rfl

section Region
variable (V : (c : Dev nD) → (b : Ref sig .tc) → Buf (Elt Ideal) ((c : Thread nD τ).loc b))

/-- The block of x at point t is rows 2048·t … of x. -/
theorem iblk_x_apply (c : Dev nD) (t : Fin cfg0.N) (y : S2048x128.Idx) (k : S16384x128.Idx)
    (hk0 : (k 0).val = t.val * 2048 + (y 0).val) (hk1 : (k 1).val = (y 1).val) :
    (iblk0 V c 0 t : Vec Ideal S2048x128 .f32) y = (V c main_arg0 : S16384x128.Idx → EReal) k := by
  obtain ⟨e0, e1, -, -, -, -⟩ := index_maps t
  unfold iblk0
  rw [View.read_apply]
  show V c main_arg0 _ = V c main_arg0 _
  congr 1
  funext a
  apply Fin.ext
  match a with
  | ⟨0, _⟩ => show win0_0.index t 0 * 2048 + 1 * (y 0).val = (k 0).val; rw [e0, hk0]; omega
  | ⟨1, _⟩ => show win0_0.index t 1 * 128 + 1 * (y 1).val = (k 1).val; rw [e1, hk1]; omega

/-- The block of W at every point is W. -/
theorem iblk_w_apply (c : Dev nD) (t : Fin cfg0.N) (y : S64x128.Idx) :
    (iblk0 V c 1 t : Vec Ideal S64x128 .f32) y = (V c main_arg2 : S64x128.Idx → EReal) y := by
  obtain ⟨-, -, e2, e3, -, -⟩ := index_maps t
  unfold iblk0
  rw [View.read_apply]
  show V c main_arg2 _ = V c main_arg2 _
  congr 1
  funext a
  apply Fin.ext
  match a with
  | ⟨0, _⟩ => show win0_1.index t 0 * 64 + 1 * (y 0).val = (y 0).val; rw [e2]; omega
  | ⟨1, _⟩ => show win0_1.index t 1 * 128 + 1 * (y 1).val = (y 1).val; rw [e3]; omega

/-- WHAT POINT t WRITES BACK is block t of the specification's array. -/
theorem flushed_eq (c : Dev nD) (t : Fin cfg0.N) :
    (dat0 (F := Ideal) V c).flushed 2 t
      = ((cfg0.win 2).blk t).view.read (Elt Ideal) (Cert.Spec.proj (V c main_arg0) (V c main_arg2)) := by
  show (cfg0.win 2).cut (grid0.coords t) ((dat0 V c).after 2 t) = _
  rw [after0_2]
  unfold out0_2
  rw [View.canon_unit_zero origin]
  simp only [View.ld_unit_zero (S := S2048x128) origin, View.ld_unit_zero (S := S64x128) origin]
  obtain ⟨-, -, -, -, e4, e5⟩ := index_maps t
  funext j
  refine proj_entry (V c main_arg0) (V c main_arg2) (iblk0 V c 0 t) (iblk0 V c 1 t) t.val _ _
    (iblk_x_apply V c t) (iblk_w_apply V c t) ?_ ?_
  · show win0_2.index t 0 * 2048 + 1 * (j 0).val = t.val * 2048 + (j 0).val; rw [e4]; omega
  · show win0_2.index t 1 * 64 + 1 * (j 1).val = (j 1).val; rw [e5]; omega

/-- An index of the array is in point t's block iff each coordinate is in the block's range on its axis. -/
theorem mem_blk (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v0).slice (win0_2.rect t)).set ↔ _
  rw [View.set_slice_whole, Rect.mem_set_unit]
  exact Iff.rfl

/-- Row r of the array is in the block of point r / 2048: the blocks fill the array. -/
theorem cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 8 := N_0
  refine ⟨⟨(i 0).val / 2048, by rw [hN]; omega⟩, flush0_2 _, ?_⟩
  obtain ⟨-, -, -, -, e4, e5⟩ := index_maps ⟨(i 0).val / 2048, by rw [hN]; omega⟩
  rw [mem_blk]
  intro a
  match a with
  | ⟨0, _⟩ =>
    show win0_2.index _ 0 * 2048 ≤ (i 0).val ∧ (i 0).val < win0_2.index _ 0 * 2048 + 2048
    rw [e4]; show (i 0).val / 2048 * 2048 ≤ (i 0).val ∧ (i 0).val < (i 0).val / 2048 * 2048 + 2048; omega
  | ⟨1, _⟩ =>
    show win0_2.index _ 1 * 64 ≤ (i 1).val ∧ (i 1).val < win0_2.index _ 1 * 64 + 64
    rw [e5]; omega

/-- THE ARRAY after the first pallas_call is the specification's projected features. -/
theorem final0 (c : Dev nD) :
    (dat0 (F := Ideal) V c).arrAt 2 cfg0.N = Cert.Spec.proj (V c main_arg0) (V c main_arg2) :=
  (dat0 (F := Ideal) V c).arrAt_eq_of_cover 2 (Cert.Spec.proj (V c main_arg0) (V c main_arg2))
    (fun t _ => flushed_eq V c t) (cover)

end Region

end Cert.KernelIdeal.HandValue

end
-- ==== Proof.KI.Value1Blocks.lean ====
/-
  The arrays the second pallas_call finds, and its windows' blocks read at an entry.

  The call finds three arrays: the adjacency matrix adj (16384 × 16384), the projected features h (16384 × 64)
  and the bias row b (1 × 64). Point t of the grid works on row block t / 8 and neighbour block t % 8: row p of
  its block of adj is node 1024 · (t / 8) + p, and position kk among its 2048 neighbours is node
  2048 · (t % 8) + kk. Its window on adj is the 1024 × 2048 block at block index (t / 8, t % 8); its windows on h
  and on b are the whole arrays, and the body loads from h the 2048 rows starting at row 2048 · (t % 8).
-/
import proofs.«164517_j44246753084001_2_alg».proof.Proof.KI.Region1
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The index maps over the grid: the block of adj is block (t / 8, t % 8); h and the bias row are one block
    each; the block of the result is block t / 8 along the rows. -/
theorem index_maps1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The rows of h the body loads at point t start at row 2048 · (t % 8), column 0. -/
theorem off_maps1 : ∀ t : Fin cfg1.N,
    k1_off1 (grid1.coords t) (0 : Fin 2) = t.val % 8 * 2048 ∧ k1_off1 (grid1.coords t) (1 : Fin 2) = 0 :=
  (by decide +kernel : ∀ t : Fin grid1.N, _)

/-- The node that row p of row block t / 8 is. -/
def rowIx (t : Fin cfg1.N) (p : Fin 1024) : Fin 16384 :=
  ⟨t.val / 8 * 1024 + p.val, by
    have ht : t.val < 128 := lt_of_lt_of_eq t.isLt (show cfg1.N = 128 from N_1)
    have hp := p.isLt
    omega⟩

/-- The node that position kk of neighbour block t % 8 is. -/
def nbIx (t : Fin cfg1.N) (kk : Fin 2048) : Fin 16384 :=
  ⟨t.val % 8 * 2048 + kk.val, by have hk := kk.isLt; omega⟩

section Region
variable (V : (c : Dev nD) → (b : Ref sig .tc) → Buf (Elt Ideal) ((c : Thread nD τ).loc b))

/-- The adjacency matrix the launch finds, as an array of extended reals. -/
abbrev adj1 (c : Dev nD) : (⟨2, ![16384, 16384]⟩ : Shape).Idx → EReal := V c main_arg1
/-- The projected features the launch finds. -/
abbrev feat1 (c : Dev nD) : (⟨2, ![16384, 64]⟩ : Shape).Idx → EReal := V c main_v0
/-- The bias row the launch finds. -/
abbrev bias1 (c : Dev nD) : (⟨2, ![1, 64]⟩ : Shape).Idx → EReal := V c main_v1

/-- The block of adj at point t, at (p, kk), is adj at (row p of row block t / 8, position kk of neighbour block
    t % 8). -/
theorem iblk_adj_apply (c : Dev nD) (t : Fin cfg1.N) (p : Fin 1024) (kk : Fin 2048) :
    (iblk1 V c 0 t : Vec Ideal S1024x2048 .f32) (ix2 p kk) = adj1 V c (ix2 (rowIx t p) (nbIx t kk)) := by
  obtain ⟨e0, e1, -, -, -, -, -, -⟩ := index_maps1 t
  unfold iblk1
  rw [View.read_apply]
  show V c main_arg1 _ = V c main_arg1 _
  congr 1
  funext a
  apply Fin.ext
  match a with
  | ⟨0, _⟩ => show win1_0.index t 0 * 1024 + 1 * p.val = t.val / 8 * 1024 + p.val; rw [e0]; omega
  | ⟨1, _⟩ => show win1_0.index t 1 * 2048 + 1 * kk.val = t.val % 8 * 2048 + kk.val; rw [e1]; omega

/-- The block of h at every point is h. -/
theorem iblk_feat_apply (c : Dev nD) (t : Fin cfg1.N) (y : S16384x64.Idx) :
    (iblk1 V c 1 t : Vec Ideal S16384x64 .bf16) y = feat1 V c y := by
  obtain ⟨-, -, e2, e3, -, -, -, -⟩ := index_maps1 t
  unfold iblk1
  rw [View.read_apply]
  show V c main_v0 _ = V c main_v0 _
  congr 1
  funext a
  apply Fin.ext
  match a with
  | ⟨0, _⟩ => show win1_1.index t 0 * 16384 + 1 * (y 0).val = (y 0).val; rw [e2]; omega
  | ⟨1, _⟩ => show win1_1.index t 1 * 64 + 1 * (y 1).val = (y 1).val; rw [e3]; omega

/-- The block of h at every point is h, as arrays. -/
theorem iblk_feat_eq (c : Dev nD) (t : Fin cfg1.N) : (iblk1 V c 1 t : Vec Ideal S16384x64 .bf16) = feat1 V c :=
  funext fun y => iblk_feat_apply V c t y

/-- The 2048 rows the body loads at point t from any contents x of the window on h: entry (kk, q) of the load is
    x at (position kk of neighbour block t % 8, q). -/
theorem ld_rows_apply (t : Fin cfg1.N) (x : Vec Ideal S16384x64 .bf16) (kk : Fin 2048) (q : Fin 64) :
    View.ld x (Rect.unit (s := S16384x64) (k1_off1 (grid1.coords t)) S2048x64.size (k1_off1_inb (grid1.coords t)))
      (ix2 kk q) = x (ix2 (nbIx t kk) q) := by
  obtain ⟨o0, o1⟩ := off_maps1 t
  show x _ = x _
  congr 1
  funext a
  apply Fin.ext
  match a with
  | ⟨0, _⟩ => show k1_off1 (grid1.coords t) 0 + 1 * kk.val = t.val % 8 * 2048 + kk.val; rw [o0]; omega
  | ⟨1, _⟩ => show k1_off1 (grid1.coords t) 1 + 1 * q.val = q.val; rw [o1]; omega

/-- The rows of h the body loads at point t, at (kk, q), are h at (position kk of neighbour block t % 8, q). -/
theorem hrows_apply (c : Dev nD) (t : Fin cfg1.N) (kk : Fin 2048) (q : Fin 64) :
    View.ld (iblk1 V c 1 t : Vec Ideal S16384x64 .bf16)
      (Rect.unit (s := S16384x64) (k1_off1 (grid1.coords t)) S2048x64.size (k1_off1_inb (grid1.coords t)))
      (ix2 kk q) = feat1 V c (ix2 (nbIx t kk) q) :=
  (ld_rows_apply t (iblk1 V c 1 t) kk q).trans (iblk_feat_apply V c t (ix2 (nbIx t kk) q))

/-- The block of the bias row at every point is the bias row. -/
theorem iblk_bias_eq (c : Dev nD) (t : Fin cfg1.N) (y : S1x64.Idx) :
    (iblk1 V c 2 t : Vec Ideal S1x64 .f32) y = bias1 V c y := by
  obtain ⟨-, -, -, -, e4, e5, -, -⟩ := index_maps1 t
  unfold iblk1
  rw [View.read_apply]
  show V c main_v1 _ = V c main_v1 _
  congr 1
  funext a
  apply Fin.ext
  match a with
  | ⟨0, _⟩ => show win1_2.index t 0 * 1 + 1 * (y 0).val = (y 0).val; rw [e4]; omega
  | ⟨1, _⟩ => show win1_2.index t 1 * 64 + 1 * (y 1).val = (y 1).val; rw [e5]; omega

/-- The block of the bias row at every point, at (0, q), is the bias row there. -/
theorem iblk_bias_apply (c : Dev nD) (t : Fin cfg1.N) (q : Fin 64) :
    (iblk1 V c 2 t : Vec Ideal S1x64 .f32) (ix2 (0 : Fin 1) q) = bias1 V c (ix2 (0 : Fin 1) q) :=
  iblk_bias_eq V c t (ix2 (0 : Fin 1) q)

end Region

end Cert.KernelIdeal.HandValue

end
-- ==== Proof.KI.Value1Pieces.lean ====
/-
  The second launch's points, read back as values. At each kind of grid point the body's run meets a list of
  stores; read back, the accumulator holds the accumulation step — the product of the point's block of adj
  with the rows of h the point loads, added to the zero block when k = 0 and to what the accumulator held
  otherwise — and when k = 7 the result window's buffer holds that step plus the bias row added to every
  row. Over the extended reals an entry (p, q) of the step at point t is
  acc (p, q) + ∑ kk, adj (1024 · (t / 8) + p, 2048 · (t % 8) + kk) · h (2048 · (t % 8) + kk, q).
-/
import proofs.«164517_j44246753084001_2_alg».proof.Proof.KI.Region1
import proofs.«164517_j44246753084001_2_alg».proof.Proof.KI.Value1Blocks
import proofs.«164517_j44246753084001_2_alg».proof.Proof.PayIdeal
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat)

/-! ## The stores each kind of point meets, read back: for any float instance -/

section Found
variable {F : FTy → Type} [FloatOps F]

/-- The whole-buffer rectangles start at the origin. -/
theorem origin1 : (![0, 0] : Fin 2 → Nat) = fun _ => 0 := funext fun a => by fin_cases a <;> rfl

/-- A point with k = 0 leaves in the accumulator the product step taken from the zero block. -/
theorem pieceA (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S16384x64 .bf16) (x2 : Vec F S1x64 .f32) :
    accV.read (Elt F) (accV.writes (Elt F) accV.junk (kernelRun1_A c i arg2 harg2 arg3 harg3 arg4 harg4 arg5 harg5 arg6 harg6 hc0 hc1 x0 x1 x2).1)
      = k1_pay2 x0 (View.ld x1 (Rect.unit (s := S16384x64) (k1_off1 i) S2048x64.size (k1_off1_inb i))) (k1_pay1 (F := F)) := by
  rw [View.read_writes_eq_canon _ _ _ (acover_A c i arg2 harg2 arg3 harg3 arg4 harg4 arg5 harg5 arg6 harg6 hc0 hc1 x0 x1 x2)]
  unfold kernelRun1_A
  dsimp only
  sl_unfold_words
  rw [View.canon_cons_unit_zero (S := S1024x64) origin1, View.readCov_unit_zero (S := S1024x64) _ origin1]
  simp only [View.readAt_eq_ld, harg2.read_unread, harg3.read_unread, View.ld_unit_zero (S := S1024x2048) origin1]

/-- A point with 0 < k < 7 leaves in the accumulator the product step taken from what it held. -/
theorem pieceB (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S16384x64 .bf16) (x2 : Vec F S1x64 .f32) (xs : Vec F S1024x64 .f32) :
    accV.read (Elt F) (accV.writes (Elt F) accV.junk (kernelRun1_B c i arg2 harg2 arg3 harg3 arg4 harg4 arg5 harg5 arg6 harg6 hc0 hc1 x0 x1 x2 xs).1)
      = k1_pay2 x0 (View.ld x1 (Rect.unit (s := S16384x64) (k1_off1 i) S2048x64.size (k1_off1_inb i))) xs := by
  rw [View.read_writes_eq_canon _ _ _ (acover_B c i arg2 harg2 arg3 harg3 arg4 harg4 arg5 harg5 arg6 harg6 hc0 hc1 x0 x1 x2 xs)]
  unfold kernelRun1_B
  dsimp only
  sl_unfold_words
  rw [View.canon_unit_zero origin1]
  simp only [View.readAt_eq_ld, harg2.read_unread, harg3.read_unread, harg6.read_unread,
    View.ld_unit_zero (S := S1024x2048) origin1, View.ld_unit_zero (S := S1024x64) origin1]

/-- A point with k = 7 leaves in the accumulator the same product step … -/
theorem pieceCacc (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) :
    accV.read (Elt F) (accV.writes (Elt F) accV.junk (kernelRun1_C c i arg2 harg2 arg3 harg3 arg4 harg4 arg5 harg5 arg6 harg6 hc0 hc1 x0 x1 x2 xs).2.1)
      = k1_pay2 x0 (View.ld x1 (Rect.unit (s := S16384x64) (k1_off1 i) S2048x64.size (k1_off1_inb i))) xs := by
  rw [View.read_writes_eq_canon _ _ _ (acover_C c i arg2 harg2 arg3 harg3 arg4 harg4 arg5 harg5 arg6 harg6 hc0 hc1 x0 x1 x2 xs)]
  unfold kernelRun1_C
  dsimp only
  sl_unfold_words
  rw [View.canon_unit_zero origin1]
  simp only [View.readAt_eq_ld, harg2.read_unread, harg3.read_unread, harg6.read_unread,
    View.ld_unit_zero (S := S1024x2048) origin1, View.ld_unit_zero (S := S1024x64) origin1]

/-- … and stores into the result window that step with the bias row added to every row. -/
theorem pieceCres (c : Dev nD) (i : grid1.Coords) (arg2 : Memref sig .tc .vmem S1024x2048 .f32) (harg2 : arg2.IsWhole) (arg3 : Memref sig .tc .vmem S16384x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S16384x64 .bf16) (x2 : Vec F S1x64 .f32) (xs : Vec F S1024x64 .f32) :
    resV.read (Elt F) (resV.writes (Elt F) resV.junk (kernelRun1_C c i arg2 harg2 arg3 harg3 arg4 harg4 arg5 harg5 arg6 harg6 hc0 hc1 x0 x1 x2 xs).1)
      = k1_pay3 (k1_pay2 x0 (View.ld x1 (Rect.unit (s := S16384x64) (k1_off1 i) S2048x64.size (k1_off1_inb i))) xs) x2 := by
  rw [View.read_writes_eq_canon _ _ _ (rcover_C c i arg2 harg2 arg3 harg3 arg4 harg4 arg5 harg5 arg6 harg6 hc0 hc1 x0 x1 x2 xs)]
  unfold kernelRun1_C
  dsimp only
  sl_unfold_words
  rw [View.canon_unit_zero origin1, View.readCov_unit_zero (S := S1024x64) _ origin1]
  simp only [View.readAt_eq_ld, harg2.read_unread, harg3.read_unread, harg4.read_unread, harg6.read_unread,
    View.ld_unit_zero (S := S1024x2048) origin1, View.ld_unit_zero (S := S1024x64) origin1,
    View.ld_unit_zero (S := S1x64) origin1]

end Found

/-! ## What each kind of point leaves, at an entry, over the extended reals -/

/-- ONE ENTRY of the accumulation step: when row p of the block x0 is row rowp of A along the neighbours nb, and
    column q of the loaded rows hh is column q of H at those neighbours, the step's entry (p, q) is the
    accumulator's plus ∑ kk, A (rowp, nb kk) · H (nb kk, q). -/
theorem step_entry (A : S16384x16384.Idx → EReal) (H : S16384x64.Idx → EReal)
    (x0 : Vec Ideal S1024x2048 .f32) (hh : Vec Ideal S2048x64 .bf16) (acc : Vec Ideal S1024x64 .f32)
    (p : Fin 1024) (q : Fin 64) (rowp : Fin 16384) (nb : Fin 2048 → Fin 16384)
    (hx0 : ∀ kk : Fin 2048, x0 (ix2 p kk) = A (ix2 rowp (nb kk)))
    (hx1 : ∀ kk : Fin 2048, hh (ix2 kk q) = H (ix2 (nb kk) q)) :
    k1_pay2 (F := Ideal) x0 hh acc (ix2 p q) = acc (ix2 p q) + ∑ kk : Fin 2048, A (ix2 rowp (nb kk)) * H (ix2 (nb kk) q) :=
  (Cert.PayIdeal.pay_acc x0 hh acc p q).trans
    (congrArg (acc (ix2 p q) + ·) (Finset.sum_congr rfl fun kk _ => congrArg₂ (· * ·) (hx0 kk) (hx1 kk)))

section Region
variable (V : (c : Dev nD) → (b : Ref sig .tc) → Buf (Elt Ideal) ((c : Thread nD τ).loc b))

/-- k = 0: the accumulator is left at 0 plus the product of the point's blocks. -/
theorem accA_apply (c : Dev nD) (t : Fin cfg1.N) (hc0 : cond1_0 (grid1.coords t)) (hc1 : ¬cond1_1 (grid1.coords t))
    (p : Fin 1024) (q : Fin 64) :
    accA (F := Ideal) V c t hc0 hc1 (ix2 p q)
      = 0 + ∑ kk : Fin 2048, adj1 V c (ix2 (rowIx t p) (nbIx t kk)) * feat1 V c (ix2 (nbIx t kk) q) := by
  unfold accA
  refine (congrFun (pieceA (F := Ideal) c (grid1.coords t) (ms1_0 t) (hs1_0 t) (ms1_1 t) (hs1_1 t) (ms1_2 t) (hs1_2 t)
    (ms1_3 t) (hs1_3 t) accM (Memref.isWhole_whole _) hc0 hc1 (iblk1 V c 0 t) (iblk1 V c 1 t) (iblk1 V c 2 t)) (ix2 p q)).trans ?_
  refine (step_entry (adj1 V c) (feat1 V c) (iblk1 V c 0 t) _ (k1_pay1 (F := Ideal)) p q (rowIx t p) (nbIx t)
    (fun kk => iblk_adj_apply V c t p kk) (fun kk => hrows_apply V c t kk q)).trans ?_
  exact congrArg (· + _) (Cert.PayIdeal.pay_zero p q)

/-- 0 < k < 7: the accumulator is left at what it held plus the product of the point's blocks. -/
theorem accB_apply (c : Dev nD) (t : Fin cfg1.N) (hc0 : ¬cond1_0 (grid1.coords t)) (hc1 : ¬cond1_1 (grid1.coords t))
    (xs : Vec Ideal S1024x64 .f32) (p : Fin 1024) (q : Fin 64) :
    accB (F := Ideal) V c t hc0 hc1 xs (ix2 p q)
      = xs (ix2 p q) + ∑ kk : Fin 2048, adj1 V c (ix2 (rowIx t p) (nbIx t kk)) * feat1 V c (ix2 (nbIx t kk) q) := by
  unfold accB
  refine (congrFun (pieceB (F := Ideal) c (grid1.coords t) (ms1_0 t) (hs1_0 t) (ms1_1 t) (hs1_1 t) (ms1_2 t) (hs1_2 t)
    (ms1_3 t) (hs1_3 t) accM (Memref.isWhole_whole _) hc0 hc1 (iblk1 V c 0 t) (iblk1 V c 1 t) (iblk1 V c 2 t) xs) (ix2 p q)).trans ?_
  exact step_entry (adj1 V c) (feat1 V c) (iblk1 V c 0 t) _ xs p q (rowIx t p) (nbIx t)
    (fun kk => iblk_adj_apply V c t p kk) (fun kk => hrows_apply V c t kk q)

/-- k = 7: the accumulator is left likewise … -/
theorem accC_apply (c : Dev nD) (t : Fin cfg1.N) (hc0 : ¬cond1_0 (grid1.coords t)) (hc1 : cond1_1 (grid1.coords t))
    (xs : Vec Ideal S1024x64 .f32) (p : Fin 1024) (q : Fin 64) :
    accC (F := Ideal) V c t hc0 hc1 xs (ix2 p q)
      = xs (ix2 p q) + ∑ kk : Fin 2048, adj1 V c (ix2 (rowIx t p) (nbIx t kk)) * feat1 V c (ix2 (nbIx t kk) q) := by
  unfold accC
  refine (congrFun (pieceCacc (F := Ideal) c (grid1.coords t) (ms1_0 t) (hs1_0 t) (ms1_1 t) (hs1_1 t) (ms1_2 t) (hs1_2 t)
    (ms1_3 t) (hs1_3 t) accM (Memref.isWhole_whole _) hc0 hc1 (iblk1 V c 0 t) (iblk1 V c 1 t) (iblk1 V c 2 t) xs) (ix2 p q)).trans ?_
  exact step_entry (adj1 V c) (feat1 V c) (iblk1 V c 0 t) _ xs p q (rowIx t p) (nbIx t)
    (fun kk => iblk_adj_apply V c t p kk) (fun kk => hrows_apply V c t kk q)

/-- … and the result window's buffer at that plus the bias of the output feature. -/
theorem resC_apply (c : Dev nD) (t : Fin cfg1.N) (hc0 : ¬cond1_0 (grid1.coords t)) (hc1 : cond1_1 (grid1.coords t))
    (xs : Vec Ideal S1024x64 .f32) (p : Fin 1024) (q : Fin 64) :
    resC (F := Ideal) V c t hc0 hc1 xs (ix2 p q)
      = (xs (ix2 p q) + ∑ kk : Fin 2048, adj1 V c (ix2 (rowIx t p) (nbIx t kk)) * feat1 V c (ix2 (nbIx t kk) q))
        + bias1 V c (ix2 (0 : Fin 1) q) := by
  unfold resC
  refine (congrFun (pieceCres (F := Ideal) c (grid1.coords t) (ms1_0 t) (hs1_0 t) (ms1_1 t) (hs1_1 t) (ms1_2 t) (hs1_2 t)
    (ms1_3 t) (hs1_3 t) accM (Memref.isWhole_whole _) hc0 hc1 (iblk1 V c 0 t) (iblk1 V c 1 t) (iblk1 V c 2 t) xs) (ix2 p q)).trans ?_
  refine (Cert.PayIdeal.pay_bias _ (iblk1 V c 2 t) p q).trans ?_
  exact congrArg₂ (· + ·)
    (step_entry (adj1 V c) (feat1 V c) (iblk1 V c 0 t) _ xs p q (rowIx t p) (nbIx t)
      (fun kk => iblk_adj_apply V c t p kk) (fun kk => hrows_apply V c t kk q))
    (iblk_bias_apply V c t q)

end Region

end Cert.KernelIdeal.HandValue

end
-- ==== Proof.LibBlockSum.lean ====
/-
  A finite sum accumulated block by block. The terms term 0, …, term (N - 1) are added up B at a time: after k
  blocks the accumulator holds the sum of the terms of index below k * B. This file states the three facts such an
  accumulation needs: the accumulator starts at zero, one more block adds exactly the B terms of that block, and
  once the bound reaches N the accumulator is the whole sum.
-/
import Mathlib.Algebra.BigOperators.Fin

namespace BlockSum

open scoped BigOperators

variable {M : Type*} [AddCommMonoid M] {N : ℕ}

/-- The kk-th index of block k lies below N as soon as the first k + 1 blocks of size B fit in N:
    k * B + kk < k * B + B = (k + 1) * B ≤ N. -/
theorem block_lt {B : ℕ} {k : ℕ} (hk : (k + 1) * B ≤ N) (kk : Fin B) : k * B + kk.val < N :=
  calc k * B + kk.val < k * B + B := Nat.add_lt_add_left kk.isLt _
    _ = (k + 1) * B := (Nat.succ_mul k B).symm
    _ ≤ N := hk

/-- The sum of the terms of index below n, for n ≤ N, is the sum over Fin n of the same terms: the indices of
    Fin N below n are exactly the images of Fin n under the inclusion Fin n → Fin N. -/
theorem partial_eq_sum_fin (term : Fin N → M) (n : ℕ) (hn : n ≤ N) :
    (∑ j ∈ Finset.univ.filter (fun j : Fin N => j.val < n), term j)
      = ∑ i : Fin n, term ⟨i.val, lt_of_lt_of_le i.isLt hn⟩ := by
  symm
  refine Finset.sum_bij (fun (i : Fin n) _ => (⟨i.val, lt_of_lt_of_le i.isLt hn⟩ : Fin N)) ?_ ?_ ?_ ?_
  · intro i _
    exact Finset.mem_filter.mpr ⟨Finset.mem_univ _, i.isLt⟩
  · intro a _ b _ h
    have hv : (⟨a.val, lt_of_lt_of_le a.isLt hn⟩ : Fin N).val = (⟨b.val, lt_of_lt_of_le b.isLt hn⟩ : Fin N).val :=
      congrArg Fin.val h
    exact Fin.ext hv
  · intro j hj
    exact ⟨⟨j.val, (Finset.mem_filter.mp hj).2⟩, Finset.mem_univ _, Fin.ext rfl⟩
  · intro i _
    rfl

/-- Before any block has been added the accumulator is zero: no index is below 0. -/
theorem partial_zero (term : Fin N → M) :
    (∑ j ∈ Finset.univ.filter (fun j : Fin N => j.val < 0), term j) = 0 := by
  rw [Finset.filter_false_of_mem (fun j _ => Nat.not_lt_zero j.val)]
  exact Finset.sum_empty

/-- One more block: the sum of the terms of index below (k + 1) * B is the sum of the terms of index below k * B
    plus the B terms of block k, those of index k * B + kk for kk < B. -/
theorem partial_step (term : Fin N → M) (B k : ℕ) (hk : (k + 1) * B ≤ N) :
    (∑ j ∈ Finset.univ.filter (fun j : Fin N => j.val < (k + 1) * B), term j)
      = (∑ j ∈ Finset.univ.filter (fun j : Fin N => j.val < k * B), term j)
        + ∑ kk : Fin B, term ⟨k * B + kk.val, block_lt hk kk⟩ := by
  have hk' : k * B ≤ N := le_trans (Nat.mul_le_mul_right B (Nat.le_succ k)) hk
  have e : k * B + B = (k + 1) * B := (Nat.succ_mul k B).symm
  rw [partial_eq_sum_fin term _ hk, partial_eq_sum_fin term _ hk']
  rw [← Fin.sum_congr' (fun i : Fin ((k + 1) * B) => term ⟨i.val, lt_of_lt_of_le i.isLt hk⟩) e,
    Fin.sum_univ_add]
  rfl

/-- Once the bound reaches N every index is below it, and the accumulator is the whole sum. -/
theorem partial_full (term : Fin N → M) (n : ℕ) (hn : N ≤ n) :
    (∑ j ∈ Finset.univ.filter (fun j : Fin N => j.val < n), term j) = ∑ j, term j := by
  rw [Finset.filter_true_of_mem (fun j _ => lt_of_lt_of_le j.isLt hn)]

end BlockSum
-- ==== Proof.KI.Value1.lean ====
/-
  The result of the second pallas_call, over the extended reals: from what each point leaves in the accumulator
  to the whole array.

  The grid is 16 row blocks by 8 blocks of neighbours, visited row block by row block. Position n works on row
  block n / 8 and neighbour block n % 8. Between points the accumulator holds a partial aggregation: after
  position n its entry (p, q) is the sum, over the neighbours j below (n % 8 + 1) · 2048, of
  adj (1024 · (n / 8) + p, j) · h (j, q). This is proved by induction on the position: a point with n % 8 = 0
  starts from zero and adds its block of 2048 neighbours; any other point adds its block to what the point
  before, which works on the same row block, left. At n % 8 = 7 the bound is 16384, the sum runs over all the
  neighbours, and the point stores it plus the bias row into block n / 8 of the result. Row r of the result is in
  the block of the point 8 · (r / 1024) + 7, so the sixteen blocks fill the array.
-/
import proofs.«164517_j44246753084001_2_alg».proof.Proof.KI.Region1
import proofs.«164517_j44246753084001_2_alg».proof.Proof.KI.Value1Blocks
import proofs.«164517_j44246753084001_2_alg».proof.Proof.KI.Value1Pieces
import proofs.«164517_j44246753084001_2_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The aggregation with the bias: entry (r, c) is the sum over all the neighbours j of A (r, j) · H (j, c), plus
    the bias row at c. -/
def aggr (A : (⟨2, ![16384, 16384]⟩ : Shape).Idx → EReal) (H : (⟨2, ![16384, 64]⟩ : Shape).Idx → EReal)
    (Bv : (⟨2, ![1, 64]⟩ : Shape).Idx → EReal) : (⟨2, ![16384, 64]⟩ : Shape).Idx → EReal :=
  fun i => (∑ j : Fin 16384, A (ix2 (i 0) j) * H (ix2 j (i 1))) + Bv (ix2 (0 : Fin 1) (i 1))

section Region
variable (V : (c : Dev nD) → (b : Ref sig .tc) → Buf (Elt Ideal) ((c : Thread nD τ).loc b))

/-- THE INVARIANT: after position n the accumulator's entry (p, q) is the aggregation of row
    r = 1024 · (n / 8) + p over the neighbours below m = (n % 8 + 1) · 2048. By induction on the position: a
    point with n % 8 = 0 adds its block to zero, which is the empty sum; any other point adds its block to what
    position n - 1 left, which is the same row's sum over the neighbours below (n % 8) · 2048. -/
theorem accAt_apply (c : Dev nD) : ∀ (n : ℕ) (hn : n < cfg1.N) (p : Fin 1024) (q : Fin 64) (r : Fin 16384)
    (hr : r.val = n / 8 * 1024 + p.val) (m : ℕ) (hm : m = (n % 8 + 1) * 2048),
    accAt (F := Ideal) V c n hn (ix2 p q)
      = ∑ j ∈ Finset.univ.filter (fun j : Fin 16384 => j.val < m),
          adj1 V c (ix2 r j) * feat1 V c (ix2 j q) := by
  intro n
  induction n using Nat.strong_induction_on with
  | _ n ih =>
    intro hn p q r hr m hm
    have hN : n < 128 := lt_of_lt_of_eq hn (show cfg1.N = 128 from N_1)
    have hk : (n % 8 + 1) * 2048 ≤ 16384 := by omega
    have hrow : rowIx ⟨n, hn⟩ p = r := Fin.ext hr.symm
    subst hm
    refine Eq.trans ?_ (BlockSum.partial_step (fun j : Fin 16384 =>
      adj1 V c (ix2 r j) * feat1 V c (ix2 j q)) 2048 (n % 8) hk).symm
    by_cases h0 : n % 8 = 0
    · refine (congrFun (accAt_A V c ⟨n, hn⟩ h0) (ix2 p q)).trans ?_
      refine (accA_apply V c ⟨n, hn⟩ _ _ p q).trans ?_
      refine congrArg₂ (· + ·) ?_ ?_
      · rw [h0, Nat.zero_mul]
        exact (BlockSum.partial_zero _).symm
      · refine Finset.sum_congr rfl fun kk _ => ?_
        rw [hrow]
        rfl
    · have hr' : r.val = (n - 1) / 8 * 1024 + p.val := by omega
      have hm' : n % 8 * 2048 = ((n - 1) % 8 + 1) * 2048 := by omega
      by_cases h1 : n % 8 = 7
      · refine (congrFun (accAt_C V c ⟨n, hn⟩ h0 h1) (ix2 p q)).trans ?_
        refine (accC_apply V c ⟨n, hn⟩ _ _ _ p q).trans ?_
        refine congrArg₂ (· + ·) ?_ ?_
        · exact ih (n - 1) (by omega) (Nat.lt_of_le_of_lt (Nat.sub_le n 1) hn) p q r hr' _ hm'
        · refine Finset.sum_congr rfl fun kk _ => ?_
          rw [hrow]
          rfl
      · refine (congrFun (accAt_B V c ⟨n, hn⟩ h0 h1) (ix2 p q)).trans ?_
        refine (accB_apply V c ⟨n, hn⟩ _ _ _ p q).trans ?_
        refine congrArg₂ (· + ·) ?_ ?_
        · exact ih (n - 1) (by omega) (Nat.lt_of_le_of_lt (Nat.sub_le n 1) hn) p q r hr' _ hm'
        · refine Finset.sum_congr rfl fun kk _ => ?_
          rw [hrow]
          rfl

/-- WHAT A POINT WITH t % 8 = 7 STORES: entry (p, q) of its block is the aggregation's entry (r, q) of row
    r = 1024 · (t / 8) + p. The point before left the row's sum over the neighbours below 7 · 2048; this point
    adds the last block, which completes the sum over all 16384 neighbours, and then the bias. -/
theorem resAt_apply (c : Dev nD) (t : Fin cfg1.N) (h7 : t.val % 8 = 7) (p : Fin 1024) (q : Fin 64) (r : Fin 16384)
    (hr : r.val = t.val / 8 * 1024 + p.val) :
    resAt (F := Ideal) V c t (ix2 p q) = aggr (V c main_arg1) (V c main_v0) (V c main_v1) (ix2 r q) := by
  have hN : t.val < 128 := lt_of_lt_of_eq t.isLt (show cfg1.N = 128 from N_1)
  have h0 : ¬t.val % 8 = 0 := by omega
  have hk : (t.val % 8 + 1) * 2048 ≤ 16384 := by omega
  have hfull : 16384 ≤ (t.val % 8 + 1) * 2048 := by omega
  have hrow : rowIx t p = r := Fin.ext hr.symm
  refine (congrFun (resAt_C V c t h0 h7) (ix2 p q)).trans ?_
  refine (resC_apply V c t _ _ _ p q).trans ?_
  show _ = (∑ j : Fin 16384, adj1 V c (ix2 r j) * feat1 V c (ix2 j q))
    + bias1 V c (ix2 (0 : Fin 1) q)
  refine congrArg (· + bias1 V c (ix2 (0 : Fin 1) q)) ?_
  refine Eq.trans ?_ (BlockSum.partial_full (fun j : Fin 16384 =>
    adj1 V c (ix2 r j) * feat1 V c (ix2 j q)) ((t.val % 8 + 1) * 2048) hfull)
  refine Eq.trans ?_ (BlockSum.partial_step (fun j : Fin 16384 =>
    adj1 V c (ix2 r j) * feat1 V c (ix2 j q)) 2048 (t.val % 8) hk).symm
  refine congrArg₂ (· + ·) ?_ ?_
  · exact accAt_apply V c (t.val - 1) _ p q r (by omega) _ (by omega)
  · refine Finset.sum_congr rfl fun kk _ => ?_
    rw [hrow]
    rfl

/-- The same at any index y of the block and any index i of the array with i₀ = 1024 · (t / 8) + y₀ and i₁ = y₁. -/
theorem resAt_entry (c : Dev nD) (t : Fin cfg1.N) (h7 : t.val % 8 = 7) (y : S1024x64.Idx) (i : S16384x64.Idx)
    (hi0 : (i 0).val = t.val / 8 * 1024 + (y 0).val) (hi1 : (i 1).val = (y 1).val) :
    resAt (F := Ideal) V c t y = aggr (V c main_arg1) (V c main_v0) (V c main_v1) i := by
  have e1 : (i 1 : Fin 64) = y 1 := Fin.ext hi1
  rw [eq_ix2 y, eq_ix2 i, e1]
  exact resAt_apply V c t h7 (y 0) (y 1) (i 0) hi0

/-- WHAT A POINT THAT WRITES BACK WRITES is its block of the aggregation. -/
theorem flushed_eq1 (c : Dev nD) (t : Fin cfg1.N) (hf : (cfg1.win 3).flush t = true) :
    (dat1 (F := Ideal) V c).flushed 3 t
      = ((cfg1.win 3).blk t).view.read (Elt Ideal) (aggr (V c main_arg1) (V c main_v0) (V c main_v1)) := by
  have h7 : t.val % 8 = 7 := (flush1_3 t).mp hf
  show (cfg1.win 3).cut (grid1.coords t) ((dat1 V c).after 3 t) = _
  rw [after1_3]
  obtain ⟨-, -, -, -, -, -, e0, e1⟩ := index_maps1 t
  funext j
  refine resAt_entry V c t h7 _ _ ?_ ?_
  · show win1_3.index t 0 * 1024 + 1 * (j 0).val = t.val / 8 * 1024 + (j 0).val; rw [e0]; omega
  · show win1_3.index t 1 * 64 + 1 * (j 1).val = (j 1).val; rw [e1]; omega

/-- An index of the array is in point t's block iff each coordinate is in the block's range on its axis. -/
theorem mem_blk1 (t : Fin cfg1.N) (i : S16384x64.Idx) :
    i ∈ ((cfg1.win 3).blk t).view.set ↔ ∀ a : Fin 2, win1_3.index t a * S1024x64.size a ≤ (i a).val
      ∧ (i a).val < win1_3.index t a * S1024x64.size a + S1024x64.size a := by
  show i ∈ ((View.whole main_v2).slice (win1_3.rect t)).set ↔ _
  rw [View.set_slice_whole, Rect.mem_set_unit]
  exact Iff.rfl

/-- Row r of the array is in the block of the point 8 · (r / 1024) + 7, which writes back: the blocks fill the
    array. -/
theorem cover1 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 128 := N_1
  have ht : (i 0).val / 1024 * 8 + 7 < cfg1.N := by rw [hN]; omega
  refine ⟨⟨(i 0).val / 1024 * 8 + 7, ht⟩, (flush1_3 _).mpr (by show ((i 0).val / 1024 * 8 + 7) % 8 = 7; omega), ?_⟩
  obtain ⟨-, -, -, -, -, -, e0, e1⟩ := index_maps1 ⟨(i 0).val / 1024 * 8 + 7, ht⟩
  rw [mem_blk1]
  intro a
  match a with
  | ⟨0, _⟩ =>
    show win1_3.index _ 0 * 1024 ≤ (i 0).val ∧ (i 0).val < win1_3.index _ 0 * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win1_3.index _ 1 * 64 ≤ (i 1).val ∧ (i 1).val < win1_3.index _ 1 * 64 + 64
    rw [e1]; omega

/-- THE ARRAY after the second pallas_call is the aggregation, with the bias, of the arrays the launch finds. -/
theorem final1 (c : Dev nD) :
    (dat1 (F := Ideal) V c).arrAt 3 cfg1.N = aggr (V c main_arg1) (V c main_v0) (V c main_v1) :=
  (dat1 (F := Ideal) V c).arrAt_eq_of_cover 3 (aggr (V c main_arg1) (V c main_v0) (V c main_v1))
    (fun t hf => flushed_eq1 V c t hf) (cover1)

end Region

end Cert.KernelIdeal.HandValue

end
-- ==== Proof.KI.KernelValue.lean ====
/-
  The kernel's result array, read off its run: the second launch leaves in the result the aggregation of the
  adjacency rows against what the first launch left (the projected features) plus the reshaped bias row, and the
  first launch leaves the rows of x against the rows of W: together, the layer's specification.
-/
import proofs.«164517_j44246753084001_2_alg».proof.Proof.KI.Run
import proofs.«164517_j44246753084001_2_alg».proof.Proof.KI.Value0
import proofs.«164517_j44246753084001_2_alg».proof.Proof.KI.Value1
import proofs.«164517_j44246753084001_2_alg».proof.Proof.Spec
import Idealize.ShloMosaic.Lib.ValueLayout
import Idealize.ShloMosaic.Lib.ValueIdx

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-- The aggregation of the adjacency rows against the projected features, plus the bias as a 1×64 row, is the
    specification: term by term the same products, and the row's entry (0, c) is the bias's entry c. -/
theorem aggr_is_out (x : (⟨2, ![16384, 128]⟩ : Shape).Idx → EReal) (adj : (⟨2, ![16384, 16384]⟩ : Shape).Idx → EReal)
    (W : (⟨2, ![64, 128]⟩ : Shape).Idx → EReal) (b : (⟨1, ![64]⟩ : Shape).Idx → EReal)
    (h : (⟨1, ![64]⟩ : Shape).ShapeCasts ⟨2, ![1, 64]⟩) :
    aggr adj (Cert.Spec.proj x W) (shapeCast ⟨2, ![1, 64]⟩ b h) = Cert.Spec.out x adj W b := by
  funext i
  obtain ⟨r, q, rfl⟩ : ∃ (r : Fin 16384) (q : Fin 64), i = ix2 r q := ⟨i 0, i 1, eq_ix2 i⟩
  unfold aggr Cert.Spec.out Cert.Spec.outAt Cert.Spec.term Cert.Spec.proj
  rw [shapeCast_a_1a_apply]

variable (m : (ℓ : Loc nD τ sig) → Buf (Elt Ideal) ℓ) (ρ : Dev nD → PrngReg)

/-- What the result array holds when the kernel's program has run. -/
theorem result_eq (c : Dev nD) :
    W4 m ρ c (Proc.devRef .tc main_v2)
      = Cert.Spec.out (m ((c : Thread nD τ).loc main_arg0)) (m ((c : Thread nD τ).loc main_arg1)) (m ((c : Thread nD τ).loc main_arg2)) (m ((c : Thread nD τ).loc main_arg3)) := by
  rw [W4_main_v2, final1, V3_main_arg1, V3_main_v0, V3_main_v1, final0, V1_main_arg0, V1_main_arg2]
  exact aggr_is_out _ _ _ _ _

/-- The kernel's program runs, ends with the specification in its result array, and leaves its arguments unchanged. -/
theorem kernel_run : θ_run defs (onTc (τ := τ) (main (F := Ideal))) ⟨m, fun _ => 0, ρ⟩ (fun r => ∀ c : Dev nD,
      r.2.mem ((c.tc : Thread nD τ).loc main_v2)
        = Cert.Spec.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.HandValue

end
-- ==== Proof.RefBridge.lean ====
/-
  The reference computes the specification. Read entry by entry, the reference transposes W, multiplies x by the
  transpose (a sum over the 128 input features), multiplies the adjacency matrix by the product (a sum over the
  16384 nodes), and adds the bias broadcast along the rows. Once every index function of these steps is written as
  a pair of coordinates, the entry at (r, c) is (∑ k, adj[r, k] · ∑ l, x[k, l] · W[c, l]) + b[c], which is the
  specification's entry.
-/
import proofs.«164517_j44246753084001_2_alg».proof.Proof.Gen.ReferenceIdeal.Read
import proofs.«164517_j44246753084001_2_alg».proof.Proof.Spec
import Idealize.ShloMosaic.Lib.ValueIdx

noncomputable section

namespace Cert.RefBridge

open Idealize.ShloMosaic Idealize.ShloMosaic.ValueIdx Cert.ReferenceIdeal Cert.ReferenceIdeal.Read
open scoped BigOperators

/-- The left operand of the aggregation is read at (r, k): row r of the adjacency matrix, neighbour k. -/
theorem lidx_v2_eq (i : S16384x64.Idx) (k : Fin 16384) : lidx_main_v2 i k = ix2 (i 0) k :=
  funext fun a => Fin.ext (by match a with | ⟨0, _⟩ => rfl | ⟨1, _⟩ => rfl)

/-- The left operand of the projection, inside the aggregation, is read at (k, l): node k, input feature l. -/
theorem lidx_v1_eq (i : S16384x64.Idx) (k : Fin 16384) (l : Fin 128) :
    lidx_main_v1 (ridx_main_v2 i k) l = ix2 k l :=
  funext fun a => Fin.ext (by match a with | ⟨0, _⟩ => rfl | ⟨1, _⟩ => rfl)

/-- The transposed weights, read at (l, c) inside the projection, are the weights at (c, l). -/
theorem idx_v0_eq (i : S16384x64.Idx) (k : Fin 16384) (l : Fin 128) :
    idx_main_v0 (ridx_main_v1 (ridx_main_v2 i k) l) = ix2 (i 1) l :=
  funext fun a => Fin.ext (by match a with | ⟨0, _⟩ => rfl | ⟨1, _⟩ => rfl)

/-- The bias, broadcast to a row and then along the rows, is read at c. -/
theorem idx_v3_eq (i : S16384x64.Idx) : idx_main_v3 (idx_main_v4 i) = ix1 (i 1) :=
  funext fun a => Fin.ext (by match a with | ⟨0, _⟩ => rfl)

/-- The reference's result is the specification: at every entry both are the aggregation over the neighbours of
    the projected features, plus the bias. -/
theorem ref_is_out (x0 : (⟨Cert.ReferenceIdeal.S16384x128, .f32⟩ : BufTy).Contents (Elt Ideal))
    (x1 : (⟨Cert.ReferenceIdeal.S16384x16384, .f32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal)) :
    Cert.ReferenceIdeal.Read.val_main_v5 (F := Ideal) x0 x1 x2 x3 = Cert.Spec.out x0 x1 x2 x3 := by
  funext i
  rw [val_main_v5_apply, val_main_v2_apply, val_main_v4_apply, val_main_v3_apply, idx_v3_eq, Ideal.addf_def]
  unfold Cert.Spec.out Cert.Spec.outAt Cert.Spec.term Cert.Spec.projAt
  refine congrArg (· + x3 (ix1 (i 1))) ?_
  refine Finset.sum_congr rfl fun k _ => ?_
  rw [val_main_v1_apply, lidx_v2_eq]
  refine congrArg (x1 (ix2 (i 0) k) * ·) ?_
  refine Finset.sum_congr rfl fun l _ => ?_
  rw [val_main_v0_apply, lidx_v1_eq, idx_v0_eq]
  rfl

end Cert.RefBridge

end
-- ==== Proof.lean ====
/-
  A graph-convolution layer: h = x · Wᵀ, out = adj · h + b, over 16384 nodes, 128 input and 64 output features.
  The kernel's program computes it in two launches. The first projects the features, eight blocks of 2048 nodes
  at a time. The second aggregates: for each of 16 blocks of 1024 rows of adj it walks the 8 blocks of 2048
  neighbours, adding into an accumulator the product of the block of adj with the matching rows of h (the
  accumulator is reset at the first block of neighbours), and after the last block stores accumulator plus bias.
  The reference is two whole matrix products and an addition.
  Over the extended reals the two agree entry by entry: a change of float format is the identity, a product of
  blocks is a finite sum of products, and the eight partial sums of 2048 terms each, added one after the other
  starting from zero, are the one sum over all 16384 neighbours — addition of extended reals is commutative and
  associative, and nothing else is used, so no entry needs to be finite. Both sides are compared with one
  function of the four arguments, the specification `Cert.Spec.out`.
  Each program also runs to its end without a fault and leaves its arguments as they were: for the kernel's two
  programs this is the launch by launch run of the pipeline, the second launch carrying the accumulator's
  contents from one grid point to the next.
-/
import proofs.«164517_j44246753084001_2_alg».proof.Defs
import proofs.«164517_j44246753084001_2_alg».proof.Proof.Gen.Kernel
import proofs.«164517_j44246753084001_2_alg».proof.Proof.Gen.KernelIdeal
import proofs.«164517_j44246753084001_2_alg».proof.Proof.Gen.ReferenceIdeal
import proofs.«164517_j44246753084001_2_alg».proof.Proof.Gen.Pre_finite_inputs
import proofs.«164517_j44246753084001_2_alg».proof.Proof.Gen.ReferenceIdeal.Run
import proofs.«164517_j44246753084001_2_alg».proof.Proof.Gen.ReferenceIdeal.Read
import proofs.«164517_j44246753084001_2_alg».proof.Proof.K.Run
import proofs.«164517_j44246753084001_2_alg».proof.Proof.KI.KernelValue
import proofs.«164517_j44246753084001_2_alg».proof.Proof.RefBridge

noncomputable section

namespace Cert.Proof

open Idealize.ShloMosaic Idealize.ShloMosaic.TcCoe Idealize.SL.Sem

/-- The kernel's program as printed runs and keeps its arguments. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The reference is a straight line of six host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's program was rewritten to read it over the extended reals. -/
theorem preserves : Cert.preserves_Kernel_KernelIdeal := trivial

/-- From memories that agree on the four arguments, both programs end with the specification of those arguments
    in their result arrays. -/
theorem algebraic : Cert.algebraic_KernelIdeal_ReferenceIdeal := by
  intro m ρ m' ρ' _ hagree
  refine ⟨_, Cert.KernelIdeal.HandValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefBridge.ref_is_out, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
